-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S1024x192 : Shape := ⟨2, ![1024, 192]⟩
abbrev S16384x1024 : Shape := ⟨2, ![16384, 1024]⟩
abbrev S16384x64 : Shape := ⟨2, ![16384, 64]⟩
abbrev S1024x1024 : Shape := ⟨2, ![1024, 1024]⟩
abbrev S8x2048x64 : Shape := ⟨3, ![8, 2048, 64]⟩
abbrev S8x2048x2048 : Shape := ⟨3, ![8, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S16384x1024, .f32⟩
  | .hbm, ⟨6, _⟩ => ⟨S16384x64, .bf16⟩
  | .hbm, ⟨7, _⟩ => ⟨S16384x64, .bf16⟩
  | .hbm, ⟨8, _⟩ => ⟨S16384x64, .bf16⟩
  | .hbm, ⟨9, _⟩ => ⟨S8x2048x64, .bf16⟩
  | .hbm, ⟨10, _⟩ => ⟨S8x2048x64, .bf16⟩
  | .hbm, ⟨11, _⟩ => ⟨S8x2048x64, .bf16⟩
  | .hbm, ⟨12, _⟩ => ⟨S8x2048x64, .f32⟩
  | .hbm, ⟨13, _⟩ => ⟨S8x2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x192, .f32⟩
  | .local _ .vmem, ⟨3, _⟩ => ⟨S1024x64, .bf16⟩
  | .local _ .vmem, ⟨4, _⟩ => ⟨S1024x64, .bf16⟩
  | .local _ .vmem, ⟨5, _⟩ => ⟨S1024x64, .bf16⟩
  | .local _ .vmem, ⟨6, _⟩ => ⟨S1024x64, .bf16⟩
  | .local _ .vmem, ⟨7, _⟩ => ⟨S1024x64, .bf16⟩
  | .local _ .vmem, ⟨8, _⟩ => ⟨S1024x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x512x64, .f32⟩
  | .local _ .vmem, ⟨16, _⟩ => ⟨S1x512x64, .f32⟩
  | .local _ .vmem, ⟨17, _⟩ => ⟨S1x512x2048, .f32⟩
  | .local _ .vmem, ⟨18, _⟩ => ⟨S1x512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  concatenates_S1024x64_S1024x64_S1024x64_S1024x192_d1 : Shape.Concatenates [S1024x64, S1024x64, S1024x64] S1024x192 1
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S1024x192_o0_0_S1024x64 : S1024x192.Slices ![0, 0] S1024x64
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  slices_S1024x192_o0_64_S1024x64 : S1024x192.Slices ![0, 64] S1024x64
  slices_S1024x192_o0_128_S1024x64 : S1024x192.Slices ![0, 128] S1024x64
  shapeCasts_S16384x64_S8x2048x64 : S16384x64.ShapeCasts S8x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S1024x1024_S1024x192_S1024x192_1_0_0_1_n_n_wf : DotDims.WF S1024x1024 S1024x192 S1024x192 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .bf16 = 32 ∨ (Rect.block (s := S16384x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .bf16 = 32 ∨ (Rect.block (s := S16384x64) S1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .bf16 = 32 ∨ (Rect.block (s := S16384x64) S1024x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .bf16 = 32 ∨ (Rect.block (s := S8x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x2048x64.size a
  hwx1_1 : ∀ i : grid1.Coords, EltTy.bits .bf16 = 32 ∨ (Rect.block (s := S8x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S8x2048x64.size a
  hwx1_2 : ∀ i : grid1.Coords, EltTy.bits .bf16 = 32 ∨ (Rect.block (s := S8x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x2048x64.size a
  hwx1_3 : ∀ i : grid1.Coords, EltTy.bits .f32 = 32 ∨ (Rect.block (s := S8x2048x64) S1x512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S8x2048x2048.size a
  hwx1_4 : ∀ i : grid1.Coords, EltTy.bits .f32 = 32 ∨ (Rect.block (s := S8x2048x2048) S1x512x2048.size (cc1_transform_4 i) (hinb1_4 i)).WholeWords (EltTy.packing .f32)

variable [Facts₀]

def dot_S1024x1024_S1024x192_S1024x192_1_0_0_1_n_n : DotDims S1024x1024 S1024x192 S1024x192 where
  lhsContracting := [1]
  rhsContracting := [0]
  lhsNonContracting := [0]
  rhsNonContracting := [1]
  lhsBatch := []
  rhsBatch := []
  wf := dot_S1024x1024_S1024x192_S1024x192_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S1x512x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.K.Data0.lean ====
/-
  The projection region (the first pallas_call) as proof data, at any float instance and at any contents `V` of the
  TensorCore's buffers when the region is entered.

  A grid point `t` of the 16 handles rows `1024·t … 1024·t + 1023` of the flattened activations `x : [16384, 1024]`.
  Window 0 is that block of rows of `x`; window 1 is the whole concatenated weight `W = [Wq | Wk | Wv] : [1024, 192]`
  (the same block at every point). The body multiplies the two and stores three column slices of the product
  `x·W : [1024, 192]`: columns 0–63 scaled by the literal 1/8 into window 2 (the queries), columns 64–127 into window 3
  (the keys), columns 128–191 into window 4 (the values). Each output's staging buffer therefore ends the point holding
  the canonical reading of its one whole-buffer store.
-/
import proofs.«151917_j9363028705719_2_alg».proof.Proof.Gen.Kernel.Launch
import proofs.«151917_j9363028705719_2_alg».proof.Proof.Gen.Kernel.Skeleton
import proofs.«151917_j9363028705719_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of rows of `x`, the whole weight, and the whole of an output's block: the three rectangles the
    body loads and stores through. -/
abbrev rX0 : Rect S1024x1024 := Rect.unit (s := S1024x1024) ![0, 0] S1024x1024.size inb_S1024x1024_S1024x1024_0_0
abbrev rW0 : Rect S1024x192 := Rect.unit (s := S1024x192) ![0, 0] S1024x192.size inb_S1024x192_S1024x192_0_0
abbrev rO0 : Rect S1024x64 := Rect.unit (s := S1024x64) ![0, 0] S1024x64.size inb_S1024x64_S1024x64_0_0

/-- The queries' staging buffer after the body: the scaled first 64 columns of (rows of x)·W. -/
def out0_2 (x0 : Vec F S1024x1024 .f32) (x1 : Vec F S1024x192 .f32) : Vec F S1024x64 .bf16 :=
  View.canon [⟨rO0, k0_pay2 (View.ld x0 rX0) (View.ld x1 rW0)⟩]
/-- The keys' staging buffer after the body: columns 64–127 of (rows of x)·W. -/
def out0_3 (x0 : Vec F S1024x1024 .f32) (x1 : Vec F S1024x192 .f32) : Vec F S1024x64 .bf16 :=
  View.canon [⟨rO0, k0_pay3 (View.ld x0 rX0) (View.ld x1 rW0)⟩]
/-- The values' staging buffer after the body: columns 128–191 of (rows of x)·W. -/
def out0_4 (x0 : Vec F S1024x1024 .f32) (x1 : Vec F S1024x192 .f32) : Vec F S1024x64 .bf16 :=
  View.canon [⟨rO0, k0_pay4 (View.ld x0 rX0) (View.ld x1 rW0)⟩]

/-- The region's proof data on core `c`: the arrays as the region finds them; after the body at point `t` each input's
    buffer still at its block and each output's at the product's slice; nothing else of the machine is touched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

end Cert.Kernel.Hand

end
-- ==== Proof.K.Body0.lean ====
/-
  The projection region's body obligation, at any float instance and any entry contents of the TensorCore's buffers.

  At a grid point the body finds the block of rows of `x` in window 0's buffer and the whole weight in window 1's —
  the first is fetched at every point, the second at the first point only, and since its block index never moves the
  buffer still holds that block at every later point. It loads both, loads each output's buffer (the values are not
  used), and stores into each output's buffer, whole, a column slice of the product. So the inputs' buffers are left as
  found, and each output's buffer reads as the canonical contents of its one whole-buffer store, whatever it held before.
-/
import proofs.«151917_j9363028705719_2_alg».proof.Proof.K.Data0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What the body finds in the input windows' buffers -/

/-- The buffer of the rows of `x` holds the point's block at every point: an input the body leaves in place holds
    what a fetch at the point would put there, and the window is uncut, so that is the block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight's buffer holds the whole weight at every point, though it is fetched at the first only: its block index
    is constant, so at a point where it is not fetched the buffer still holds the previous point's block, which is
    this point's. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The stores cover each output's buffer -/

/-- One store through the whole-buffer rectangle tiles the buffer, so every index lies in it. -/
theorem cover0 (p : Vec F S1024x64 .bf16) (y : S1024x64.Idx) :
    ∃ pc ∈ ([⟨rO0, p⟩] : List (View.Piece (Elt F) S1024x64 .bf16)), y ∈ pc.1.set :=
  View.cover_of_tiled [⟨rO0, p⟩] S1024x64.size (by rfl) y

/-! ## The body's triple -/

set_option maxHeartbeats 1000000 in
/-- The body on whole staging memrefs — the inputs' reading `x0`, `x1`, each output's at any contents — runs to the
    continuation with the inputs' as they were and each output's at the canonical contents of its store: the two
    loads read `x0` and `x1`, the three loads of the outputs' buffers bind values nothing reads, and each store
    overwrites its whole buffer. -/
theorem sound_kernel0 (c : Dev nD) (E : Set ℕ) (i : grid0.Coords)
    (arg1 : Memref sig .tc .vmem S1024x1024 .f32) (harg1 : arg1.IsWhole)
    (arg2 : Memref sig .tc .vmem S1024x192 .f32) (harg2 : arg2.IsWhole)
    (arg3 : Memref sig .tc .vmem S1024x64 .bf16) (harg3 : arg3.IsWhole)
    (arg4 : Memref sig .tc .vmem S1024x64 .bf16) (harg4 : arg4.IsWhole)
    (arg5 : Memref sig .tc .vmem S1024x64 .bf16) (harg5 : arg5.IsWhole)
    (x0 : Vec F S1024x1024 .f32) (x1 : Vec F S1024x192 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E
          (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The body obligation, at a generic point -/

/-- What the body is called with at point `t`: the region's invariant, the core's debt, and each window's current
    buffer at what the point finds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same invariant and debt, and each window's buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, the outputs' hold something, so the body's triple
    applies; the invariant and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The region's body obligation: the windows taken one by one, it is the body's triple at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Data1.lean ====
/-
  The attention region (the second pallas_call) as proof data, at any float instance and at any contents `V` of the
  TensorCore's buffers when the region is entered.

  The grid is 8 × 4: point (b, j) handles batch `b` and query rows `512·j … 512·j + 511`. Window 0 is that block of the
  queries `q : [8, 2048, 64]`; windows 1 and 2 are batch `b`'s whole keys and values `[1, 2048, 64]`. The body forms the
  scores `q·kᵀ : [512, 2048]`, subtracts each row's maximum, exponentiates, divides by the row's sum, stores these weights
  into window 4 (a block `[1, 512, 2048]` of the weights) and the product of the weights with the values into window 3
  (a block `[1, 512, 64]` of the output). Each output's staging buffer ends the point holding the canonical reading of
  its one whole-buffer store.
-/
import proofs.«151917_j9363028705719_2_alg».proof.Proof.Gen.Kernel.Launch
import proofs.«151917_j9363028705719_2_alg».proof.Proof.Gen.Kernel.Skeleton
import proofs.«151917_j9363028705719_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a query block, of a batch's keys or values, of an output block and of a weights block: the rectangles
    the body loads and stores through. -/
abbrev rQ1 : Rect S1x512x64 := Rect.unit (s := S1x512x64) ![0, 0, 0] S1x512x64.size inb_S1x512x64_S1x512x64_0_0_0
abbrev rK1 : Rect S1x2048x64 := Rect.unit (s := S1x2048x64) ![0, 0, 0] S1x2048x64.size inb_S1x2048x64_S1x2048x64_0_0_0
abbrev rP1 : Rect S1x512x2048 := Rect.unit (s := S1x512x2048) ![0, 0, 0] S1x512x2048.size inb_S1x512x2048_S1x512x2048_0_0_0

/-- The output block's staging buffer after the body: softmax(q·kᵀ)·v on the block's rows. -/
def out1_3 (x0 : Vec F S1x512x64 .bf16) (x1 : Vec F S1x2048x64 .bf16) (x2 : Vec F S1x2048x64 .bf16) : Vec F S1x512x64 .f32 :=
  View.canon [⟨rQ1, k1_pay3 (View.ld x0 rQ1) (View.ld x1 rK1) (View.ld x2 rK1)⟩]
/-- The weights block's staging buffer after the body: softmax(q·kᵀ) on the block's rows. -/
def out1_4 (x0 : Vec F S1x512x64 .bf16) (x1 : Vec F S1x2048x64 .bf16) : Vec F S1x512x2048 .f32 :=
  View.canon [⟨rP1, k1_pay2 (View.ld x0 rQ1) (View.ld x1 rK1)⟩]

/-- The region's proof data on core `c`: the arrays as the region finds them; after the body at point `t` each input's
    buffer still at its block and each output's at the body's result on the input blocks; nothing else is touched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

end Cert.Kernel.Hand

end
-- ==== Proof.K.Body1.lean ====
/-
  The attention region's body obligation: at every point of the 8 × 4 grid the body, called on the current staging
  buffers, leaves the three input buffers (the query block, the batch's keys, the batch's values) as it found them and
  leaves in the two output buffers the softmax weights of the block's rows and their product with the values.

  Three facts make this up. (1) Each input buffer holds its window's block at every point, fetched there or not: the
  query block is fetched at every point; the keys and values are fetched only when the batch changes, and between
  fetches their block index does not move, so the buffer still holds the right block. (2) The body itself, on whole
  buffers whose inputs read `x0 x1 x2` and whose outputs hold anything, reads the three inputs, reads and discards the
  two outputs' old contents, and overwrites each output by one store over its whole extent — the weights first, then
  the output block; a single store over the whole extent covers the buffer, so what it leaves is the canonical reading
  of that one piece whatever was there before. (3) The region's invariant and the core's tally are the same before and
  after a point and pass through unread.
-/
import proofs.«151917_j9363028705719_2_alg».proof.Proof.K.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What the body finds in each input buffer -/

/-- The query block's buffer holds the block of the current point: the window is an input, never idle and uncut, and
    the body leaves the block in place, so the buffer holds what a fetch at the point would put there. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The keys' buffer holds the current batch's keys at every point: fetched when the batch changes, and in between
    the block index (a function of the batch alone) has not moved. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The values' buffer holds the current batch's values at every point, for the same reason. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## One store over the whole extent covers the buffer -/

/-- Every index of an output block lies in the one rectangle stored through. -/
theorem cover1_3 (p : Vec F S1x512x64 .f32) (y : S1x512x64.Idx) :
    ∃ pc ∈ ([⟨rQ1, p⟩] : List (View.Piece (Elt F) S1x512x64 .f32)), y ∈ pc.1.set :=
  View.cover_of_tiled [⟨rQ1, p⟩] S1x512x64.size (by rfl) y

/-- Every index of a weights block lies in the one rectangle stored through. -/
theorem cover1_4 (p : Vec F S1x512x2048 .f32) (y : S1x512x2048.Idx) :
    ∃ pc ∈ ([⟨rP1, p⟩] : List (View.Piece (Elt F) S1x512x2048 .f32)), y ∈ pc.1.set :=
  View.cover_of_tiled [⟨rP1, p⟩] S1x512x2048.size (by rfl) y

/-! ## The body on whole buffers -/

set_option maxHeartbeats 1000000 in
/-- The body on whole buffers, the three inputs reading `x0 x1 x2` and the two outputs holding anything, runs to a
    state where the inputs are as they were, the weights buffer reads the softmax weights of `x0` against `x1`, and the
    output buffer reads those weights times `x2`. The old contents of the outputs are read and dropped; each output is
    then overwritten by one store over its whole extent, the weights first. -/
theorem sound_kernel1 (c : Dev nD) (E : Set ℕ) (i : grid1.Coords)
    (arg2 : Memref sig .tc .vmem S1x512x64 .bf16) (harg2 : arg2.IsWhole)
    (arg3 : Memref sig .tc .vmem S1x2048x64 .bf16) (harg3 : arg3.IsWhole)
    (arg4 : Memref sig .tc .vmem S1x2048x64 .bf16) (harg4 : arg4.IsWhole)
    (arg5 : Memref sig .tc .vmem S1x512x64 .f32) (harg5 : arg5.IsWhole)
    (arg6 : Memref sig .tc .vmem S1x512x2048 .f32) (harg6 : arg6.IsWhole)
    (x0 : Vec F S1x512x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out1_3 x0 x1 x2)
            ∗ owns (c : Thread nD τ) arg6 fullShare (out1_4 x0 x1)) -∗ K ⟨⟩))
      ⊢ wp frame (wpE (defs₀ (F := F)) Variants.none c none) E
          (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The body obligation at a generic point -/

/-- What the body is called with at point `t`: the region's invariant, the core's tally, and each window's current
    staging buffer at what the point finds there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same invariant and tally, and each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the three input buffers hold their blocks, the two output buffers hold something, so the
    triple on whole buffers applies at the blocks; the invariant and the tally do not depend on the point and pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The attention region's body obligation, at every point: the five windows taken one by one on both sides. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main from the launch to the return: a stretch of host operations (the three weights concatenated into
  `W = [Wq | Wk | Wv]`, the activations flattened to `[16384, 1024]`), the projection region, a second stretch (the
  queries, keys and values reshaped to `[8, 2048, 64]`), the attention region.

  The state carried from item to item is, per core, every unscoped buffer whole at a NAMED valuation: `W0` the launch
  memory, `W1` after the first stretch, `W2` after the projection (its five arrays at what the pipeline's write-backs
  leave, everything else as at `W1`), `W3` after the second stretch, `W4` after the attention region. Given the two
  body obligations — at each region's entry contents — every weakly fair execution terminates without fault and the
  final memory agrees with `W4` on every unscoped buffer (`run_all`). Read at particular buffers, `W4` is the
  launch memory at each argument (nothing writes one) and the attention region's folded write-backs at the two results.
-/
import proofs.«151917_j9363028705719_2_alg».proof.Proof.K.Data0
import proofs.«151917_j9363028705719_2_alg».proof.Proof.K.Data1
import proofs.«151917_j9363028705719_2_alg».proof.Proof.Gen.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between items -/

/-- Core `c`'s buffers at launch. -/
abbrev W0 : Dev nD → Valuation τ sig (Elt F) := fun c b => (s₀ m ρ).mem ((c : Dev nD), b)
/-- After the first host stretch: `main_v0` holds the concatenated weight, `main_v1` the flattened activations. -/
abbrev W1 : Dev nD → Valuation τ sig (Elt F) := fun c => StableHlo.after hostOps0 (W0 m ρ c)
/-- `W1` read at the TensorCore's references: the contents the projection region is entered at. -/
abbrev V1 : (c : Dev nD) → (b : Ref sig .tc) → Buf (Elt F) ((c : Thread nD τ).loc b) := fun c b => W1 m ρ c b
/-- After the projection region: each of its five arrays at the fold of the region's write-backs over all 16 points
    (an input's fold is its entry contents), every other buffer as at `W1`. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W2` read at the TensorCore's references. -/
abbrev V2 : (c : Dev nD) → (b : Ref sig .tc) → Buf (Elt F) ((c : Thread nD τ).loc b) := fun c b => W2 m ρ c b
/-- Leaving the projection region: an array holds its fold, any other buffer what it held on entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: `main_v3`, `main_v4`, `main_v5` hold the queries, keys and values per batch. -/
abbrev W3 : Dev nD → Valuation τ sig (Elt F) := fun c => StableHlo.after hostOps1 (W2 m ρ c)
/-- `W3` read at the TensorCore's references: the contents the attention region is entered at. -/
abbrev V3 : (c : Dev nD) → (b : Ref sig .tc) → Buf (Elt F) ((c : Thread nD τ).loc b) := fun c b => W3 m ρ c b
/-- After the attention region: each of its five arrays at the fold of the region's write-backs over all 32 points,
    every other buffer as at `W3`. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- `W4` read at the TensorCore's references. -/
abbrev V4 : (c : Dev nD) → (b : Ref sig .tc) → Buf (Elt F) ((c : Thread nD τ).loc b) := fun c b => W4 m ρ c b
/-- Leaving the attention region: an array holds its fold, any other buffer what it held on entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The valuations read at particular buffers

The projection's three results are windows 2, 3, 4 of its region; the attention's two are windows 3 and 4 of its. -/

theorem W2_q (c : Dev nD) : W2 m ρ c (Proc.devRef .tc main_v2_0) = (dat0 (V1 m ρ) c).arrAt 2 cfg0.N := W2_arr m ρ c 2
theorem W2_k (c : Dev nD) : W2 m ρ c (Proc.devRef .tc main_v2_1) = (dat0 (V1 m ρ) c).arrAt 3 cfg0.N := W2_arr m ρ c 3
theorem W2_v (c : Dev nD) : W2 m ρ c (Proc.devRef .tc main_v2_2) = (dat0 (V1 m ρ) c).arrAt 4 cfg0.N := W2_arr m ρ c 4
theorem W4_out (c : Dev nD) : W4 m ρ c (Proc.devRef .tc main_v6_0) = (dat1 (V3 m ρ) c).arrAt 3 cfg1.N := W4_arr m ρ c 3
theorem W4_wts (c : Dev nD) : W4 m ρ c (Proc.devRef .tc main_v6_1) = (dat1 (V3 m ρ) c).arrAt 4 cfg1.N := W4_arr m ρ c 4

/-! An argument is no array of either region and no host operation writes it: walking the fold back from `W4`, every
    step leaves its buffer alone, down to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data per pipeline and what rides beside the buffers -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers a core carries its generator register at some state and the record that it owes nothing. -/
abbrev R (c : Dev nD) : sProp 𝕄 := iprop((∃ r, prngReg c r) ∗ ∃ W, owes (c : Thread nD τ) (0 : CellTallies nD τ sig Unit) W)
/-- A stretch of host operations from the contents `W`: it takes every unscoped buffer at `W c` to
    `StableHlo.after ops (W c)`, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is one of those the carried state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, without the owing record: every unscoped buffer at `W4`, the register at some state. -/
abbrev Tₙ (c : Dev nD) : sProp 𝕄 := iprop(StableHlo.held (c : Thread nD τ) (Pipeline.ucRefs τ sig) (W4 m ρ c) ∗ ∃ r, prngReg c r)

/-! ## The two regions

A region is entered with every unscoped buffer at the entry valuation. Its five arrays are split off (the rest stays
aside as `Z`), the register goes into the pipeline's invariant and comes back, and at the exit the arrays — now at
their folds — rejoin the rest, which is exactly the exit valuation. The body obligation is the hypothesis. -/

set_option backward.isDefEq.respectTransparency.types false in
/-- The projection region: from `W1` to `W2`. -/
def reg0 (hb0 : ∀ c : Dev nD, BodyObligation (dat0 (F := F) (V1 m ρ) c) (defs₀ (F := F)) Variants.none () Set.univ) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: from `W3` to `W4`, ending owing nothing. -/
def reg1 (hb1 : ∀ c : Dev nD, BodyObligation (dat1 (F := F) (V3 m ρ) c) (defs₀ (F := F)) Variants.none () Set.univ) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

/-- The four items in @main's order. -/
abbrev segs (hb0 : ∀ c : Dev nD, BodyObligation (dat0 (F := F) (V1 m ρ) c) (defs₀ (F := F)) Variants.none () Set.univ)
    (hb1 : ∀ c : Dev nD, BodyObligation (dat1 (F := F) (V3 m ρ) c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1) ]
/-- @main is the run of these items. -/
theorem main_run (hb0 : ∀ c : Dev nD, BodyObligation (dat0 (F := F) (V1 m ρ) c) (defs₀ (F := F)) Variants.none () Set.univ)
    (hb1 : ∀ c : Dev nD, BodyObligation (dat1 (F := F) (V3 m ρ) c) (defs₀ (F := F)) Variants.none () Set.univ) (c : Dev nD) : main (F := F) c = Pipeline.Seg.run (segs m ρ hb0 hb1) := (main_chain c).trans (by chain_rfl)

set_option backward.isDefEq.respectTransparency.types false in
/-- From any memory with zero counters, every weakly fair execution of @main terminates, nothing faulting, and the final
    memory agrees with `W4` on every unscoped buffer of every core. -/
theorem run_all (hb0 : ∀ c : Dev nD, BodyObligation (dat0 (F := F) (V1 m ρ) c) (defs₀ (F := F)) Variants.none () Set.univ)
    (hb1 : ∀ c : Dev nD, BodyObligation (dat1 (F := F) (V3 m ρ) c) (defs₀ (F := F)) Variants.none () Set.univ) :
    θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- In particular every argument ends holding what it held at launch. -/
theorem frame (hb0 : ∀ c : Dev nD, BodyObligation (dat0 (F := F) (V1 m ρ) c) (defs₀ (F := F)) Variants.none () Set.univ)
    (hb1 : ∀ c : Dev nD, BodyObligation (dat1 (F := F) (V3 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (Q := fun r => ∀ c : Dev nD, ∀ b ∈ Pipeline.ucRefs τ sig, r.2.mem (((c : Thread nD τ)).1, b) = W4 m ρ c b)
    (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ hb0 hb1)

end Cert.Kernel.Hand

end
-- ==== Proof.KI.Data0.lean ====
/-
  The projection region (the first pallas_call) as proof data, at any float instance and at any contents `V` of the
  TensorCore's buffers when the region is entered.

  A grid point `t` of the 16 handles rows `1024·t … 1024·t + 1023` of the flattened activations `x : [16384, 1024]`.
  Window 0 is that block of rows of `x`; window 1 is the whole concatenated weight `W = [Wq | Wk | Wv] : [1024, 192]`
  (the same block at every point). The body multiplies the two and stores three column slices of the product
  `x·W : [1024, 192]`: columns 0–63 scaled by the literal 1/8 into window 2 (the queries), columns 64–127 into window 3
  (the keys), columns 128–191 into window 4 (the values). Each output's staging buffer therefore ends the point holding
  the canonical reading of its one whole-buffer store.
-/
import proofs.«151917_j9363028705719_2_alg».proof.Proof.Gen.KernelIdeal.Launch
import proofs.«151917_j9363028705719_2_alg».proof.Proof.Gen.KernelIdeal.Skeleton
import proofs.«151917_j9363028705719_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of rows of `x`, the whole weight, and the whole of an output's block: the three rectangles the
    body loads and stores through. -/
abbrev rX0 : Rect S1024x1024 := Rect.unit (s := S1024x1024) ![0, 0] S1024x1024.size inb_S1024x1024_S1024x1024_0_0
abbrev rW0 : Rect S1024x192 := Rect.unit (s := S1024x192) ![0, 0] S1024x192.size inb_S1024x192_S1024x192_0_0
abbrev rO0 : Rect S1024x64 := Rect.unit (s := S1024x64) ![0, 0] S1024x64.size inb_S1024x64_S1024x64_0_0

/-- The queries' staging buffer after the body: the scaled first 64 columns of (rows of x)·W. -/
def out0_2 (x0 : Vec F S1024x1024 .f32) (x1 : Vec F S1024x192 .f32) : Vec F S1024x64 .bf16 :=
  View.canon [⟨rO0, k0_pay2 (View.ld x0 rX0) (View.ld x1 rW0)⟩]
/-- The keys' staging buffer after the body: columns 64–127 of (rows of x)·W. -/
def out0_3 (x0 : Vec F S1024x1024 .f32) (x1 : Vec F S1024x192 .f32) : Vec F S1024x64 .bf16 :=
  View.canon [⟨rO0, k0_pay3 (View.ld x0 rX0) (View.ld x1 rW0)⟩]
/-- The values' staging buffer after the body: columns 128–191 of (rows of x)·W. -/
def out0_4 (x0 : Vec F S1024x1024 .f32) (x1 : Vec F S1024x192 .f32) : Vec F S1024x64 .bf16 :=
  View.canon [⟨rO0, k0_pay4 (View.ld x0 rX0) (View.ld x1 rW0)⟩]

/-- The region's proof data on core `c`: the arrays as the region finds them; after the body at point `t` each input's
    buffer still at its block and each output's at the product's slice; nothing else of the machine is touched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

end Cert.KernelIdeal.Hand

end
-- ==== Proof.KI.Body0.lean ====
/-
  The projection region's body obligation, at any float instance and any entry contents of the TensorCore's buffers.

  At a grid point the body finds the block of rows of `x` in window 0's buffer and the whole weight in window 1's —
  the first is fetched at every point, the second at the first point only, and since its block index never moves the
  buffer still holds that block at every later point. It loads both, loads each output's buffer (the values are not
  used), and stores into each output's buffer, whole, a column slice of the product. So the inputs' buffers are left as
  found, and each output's buffer reads as the canonical contents of its one whole-buffer store, whatever it held before.
-/
import proofs.«151917_j9363028705719_2_alg».proof.Proof.KI.Data0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What the body finds in the input windows' buffers -/

/-- The buffer of the rows of `x` holds the point's block at every point: an input the body leaves in place holds
    what a fetch at the point would put there, and the window is uncut, so that is the block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight's buffer holds the whole weight at every point, though it is fetched at the first only: its block index
    is constant, so at a point where it is not fetched the buffer still holds the previous point's block, which is
    this point's. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The stores cover each output's buffer -/

/-- One store through the whole-buffer rectangle tiles the buffer, so every index lies in it. -/
theorem cover0 (p : Vec F S1024x64 .bf16) (y : S1024x64.Idx) :
    ∃ pc ∈ ([⟨rO0, p⟩] : List (View.Piece (Elt F) S1024x64 .bf16)), y ∈ pc.1.set :=
  View.cover_of_tiled [⟨rO0, p⟩] S1024x64.size (by rfl) y

/-! ## The body's triple -/

set_option maxHeartbeats 1000000 in
/-- The body on whole staging memrefs — the inputs' reading `x0`, `x1`, each output's at any contents — runs to the
    continuation with the inputs' as they were and each output's at the canonical contents of its store: the two
    loads read `x0` and `x1`, the three loads of the outputs' buffers bind values nothing reads, and each store
    overwrites its whole buffer. -/
theorem sound_kernel0 (c : Dev nD) (E : Set ℕ) (i : grid0.Coords)
    (arg1 : Memref sig .tc .vmem S1024x1024 .f32) (harg1 : arg1.IsWhole)
    (arg2 : Memref sig .tc .vmem S1024x192 .f32) (harg2 : arg2.IsWhole)
    (arg3 : Memref sig .tc .vmem S1024x64 .bf16) (harg3 : arg3.IsWhole)
    (arg4 : Memref sig .tc .vmem S1024x64 .bf16) (harg4 : arg4.IsWhole)
    (arg5 : Memref sig .tc .vmem S1024x64 .bf16) (harg5 : arg5.IsWhole)
    (x0 : Vec F S1024x1024 .f32) (x1 : Vec F S1024x192 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E
          (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The body obligation, at a generic point -/

/-- What the body is called with at point `t`: the region's invariant, the core's debt, and each window's current
    buffer at what the point finds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same invariant and debt, and each window's buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, the outputs' hold something, so the body's triple
    applies; the invariant and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The region's body obligation: the windows taken one by one, it is the body's triple at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Data1.lean ====
/-
  The attention region (the second pallas_call) as proof data, at any float instance and at any contents `V` of the
  TensorCore's buffers when the region is entered.

  The grid is 8 × 4: point (b, j) handles batch `b` and query rows `512·j … 512·j + 511`. Window 0 is that block of the
  queries `q : [8, 2048, 64]`; windows 1 and 2 are batch `b`'s whole keys and values `[1, 2048, 64]`. The body forms the
  scores `q·kᵀ : [512, 2048]`, subtracts each row's maximum, exponentiates, divides by the row's sum, stores these weights
  into window 4 (a block `[1, 512, 2048]` of the weights) and the product of the weights with the values into window 3
  (a block `[1, 512, 64]` of the output). Each output's staging buffer ends the point holding the canonical reading of
  its one whole-buffer store.
-/
import proofs.«151917_j9363028705719_2_alg».proof.Proof.Gen.KernelIdeal.Launch
import proofs.«151917_j9363028705719_2_alg».proof.Proof.Gen.KernelIdeal.Skeleton
import proofs.«151917_j9363028705719_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a query block, of a batch's keys or values, of an output block and of a weights block: the rectangles
    the body loads and stores through. -/
abbrev rQ1 : Rect S1x512x64 := Rect.unit (s := S1x512x64) ![0, 0, 0] S1x512x64.size inb_S1x512x64_S1x512x64_0_0_0
abbrev rK1 : Rect S1x2048x64 := Rect.unit (s := S1x2048x64) ![0, 0, 0] S1x2048x64.size inb_S1x2048x64_S1x2048x64_0_0_0
abbrev rP1 : Rect S1x512x2048 := Rect.unit (s := S1x512x2048) ![0, 0, 0] S1x512x2048.size inb_S1x512x2048_S1x512x2048_0_0_0

/-- The output block's staging buffer after the body: softmax(q·kᵀ)·v on the block's rows. -/
def out1_3 (x0 : Vec F S1x512x64 .bf16) (x1 : Vec F S1x2048x64 .bf16) (x2 : Vec F S1x2048x64 .bf16) : Vec F S1x512x64 .f32 :=
  View.canon [⟨rQ1, k1_pay3 (View.ld x0 rQ1) (View.ld x1 rK1) (View.ld x2 rK1)⟩]
/-- The weights block's staging buffer after the body: softmax(q·kᵀ) on the block's rows. -/
def out1_4 (x0 : Vec F S1x512x64 .bf16) (x1 : Vec F S1x2048x64 .bf16) : Vec F S1x512x2048 .f32 :=
  View.canon [⟨rP1, k1_pay2 (View.ld x0 rQ1) (View.ld x1 rK1)⟩]

/-- The region's proof data on core `c`: the arrays as the region finds them; after the body at point `t` each input's
    buffer still at its block and each output's at the body's result on the input blocks; nothing else is touched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

end Cert.KernelIdeal.Hand

end
-- ==== Proof.KI.Body1.lean ====
/-
  The attention region's body obligation: at every point of the 8 × 4 grid the body, called on the current staging
  buffers, leaves the three input buffers (the query block, the batch's keys, the batch's values) as it found them and
  leaves in the two output buffers the softmax weights of the block's rows and their product with the values.

  Three facts make this up. (1) Each input buffer holds its window's block at every point, fetched there or not: the
  query block is fetched at every point; the keys and values are fetched only when the batch changes, and between
  fetches their block index does not move, so the buffer still holds the right block. (2) The body itself, on whole
  buffers whose inputs read `x0 x1 x2` and whose outputs hold anything, reads the three inputs, reads and discards the
  two outputs' old contents, and overwrites each output by one store over its whole extent — the weights first, then
  the output block; a single store over the whole extent covers the buffer, so what it leaves is the canonical reading
  of that one piece whatever was there before. (3) The region's invariant and the core's tally are the same before and
  after a point and pass through unread.
-/
import proofs.«151917_j9363028705719_2_alg».proof.Proof.KI.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What the body finds in each input buffer -/

/-- The query block's buffer holds the block of the current point: the window is an input, never idle and uncut, and
    the body leaves the block in place, so the buffer holds what a fetch at the point would put there. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The keys' buffer holds the current batch's keys at every point: fetched when the batch changes, and in between
    the block index (a function of the batch alone) has not moved. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The values' buffer holds the current batch's values at every point, for the same reason. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## One store over the whole extent covers the buffer -/

/-- Every index of an output block lies in the one rectangle stored through. -/
theorem cover1_3 (p : Vec F S1x512x64 .f32) (y : S1x512x64.Idx) :
    ∃ pc ∈ ([⟨rQ1, p⟩] : List (View.Piece (Elt F) S1x512x64 .f32)), y ∈ pc.1.set :=
  View.cover_of_tiled [⟨rQ1, p⟩] S1x512x64.size (by rfl) y

/-- Every index of a weights block lies in the one rectangle stored through. -/
theorem cover1_4 (p : Vec F S1x512x2048 .f32) (y : S1x512x2048.Idx) :
    ∃ pc ∈ ([⟨rP1, p⟩] : List (View.Piece (Elt F) S1x512x2048 .f32)), y ∈ pc.1.set :=
  View.cover_of_tiled [⟨rP1, p⟩] S1x512x2048.size (by rfl) y

/-! ## The body on whole buffers -/

set_option maxHeartbeats 1000000 in
/-- The body on whole buffers, the three inputs reading `x0 x1 x2` and the two outputs holding anything, runs to a
    state where the inputs are as they were, the weights buffer reads the softmax weights of `x0` against `x1`, and the
    output buffer reads those weights times `x2`. The old contents of the outputs are read and dropped; each output is
    then overwritten by one store over its whole extent, the weights first. -/
theorem sound_kernel1 (c : Dev nD) (E : Set ℕ) (i : grid1.Coords)
    (arg2 : Memref sig .tc .vmem S1x512x64 .bf16) (harg2 : arg2.IsWhole)
    (arg3 : Memref sig .tc .vmem S1x2048x64 .bf16) (harg3 : arg3.IsWhole)
    (arg4 : Memref sig .tc .vmem S1x2048x64 .bf16) (harg4 : arg4.IsWhole)
    (arg5 : Memref sig .tc .vmem S1x512x64 .f32) (harg5 : arg5.IsWhole)
    (arg6 : Memref sig .tc .vmem S1x512x2048 .f32) (harg6 : arg6.IsWhole)
    (x0 : Vec F S1x512x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out1_3 x0 x1 x2)
            ∗ owns (c : Thread nD τ) arg6 fullShare (out1_4 x0 x1)) -∗ K ⟨⟩))
      ⊢ wp frame (wpE (defs₀ (F := F)) Variants.none c none) E
          (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The body obligation at a generic point -/

/-- What the body is called with at point `t`: the region's invariant, the core's tally, and each window's current
    staging buffer at what the point finds there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same invariant and tally, and each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the three input buffers hold their blocks, the two output buffers hold something, so the
    triple on whole buffers applies at the blocks; the invariant and the tally do not depend on the point and pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The attention region's body obligation, at every point: the five windows taken one by one on both sides. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main from the launch to the return: a stretch of host operations (the three weights concatenated into
  `W = [Wq | Wk | Wv]`, the activations flattened to `[16384, 1024]`), the projection region, a second stretch (the
  queries, keys and values reshaped to `[8, 2048, 64]`), the attention region.

  The state carried from item to item is, per core, every unscoped buffer whole at a NAMED valuation: `W0` the launch
  memory, `W1` after the first stretch, `W2` after the projection (its five arrays at what the pipeline's write-backs
  leave, everything else as at `W1`), `W3` after the second stretch, `W4` after the attention region. Given the two
  body obligations — at each region's entry contents — every weakly fair execution terminates without fault and the
  final memory agrees with `W4` on every unscoped buffer (`run_all`). Read at particular buffers, `W4` is the
  launch memory at each argument (nothing writes one) and the attention region's folded write-backs at the two results.
-/
import proofs.«151917_j9363028705719_2_alg».proof.Proof.KI.Data0
import proofs.«151917_j9363028705719_2_alg».proof.Proof.KI.Data1
import proofs.«151917_j9363028705719_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between items -/

/-- Core `c`'s buffers at launch. -/
abbrev W0 : Dev nD → Valuation τ sig (Elt F) := fun c b => (s₀ m ρ).mem ((c : Dev nD), b)
/-- After the first host stretch: `main_v0` holds the concatenated weight, `main_v1` the flattened activations. -/
abbrev W1 : Dev nD → Valuation τ sig (Elt F) := fun c => StableHlo.after hostOps0 (W0 m ρ c)
/-- `W1` read at the TensorCore's references: the contents the projection region is entered at. -/
abbrev V1 : (c : Dev nD) → (b : Ref sig .tc) → Buf (Elt F) ((c : Thread nD τ).loc b) := fun c b => W1 m ρ c b
/-- After the projection region: each of its five arrays at the fold of the region's write-backs over all 16 points
    (an input's fold is its entry contents), every other buffer as at `W1`. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W2` read at the TensorCore's references. -/
abbrev V2 : (c : Dev nD) → (b : Ref sig .tc) → Buf (Elt F) ((c : Thread nD τ).loc b) := fun c b => W2 m ρ c b
/-- Leaving the projection region: an array holds its fold, any other buffer what it held on entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: `main_v3`, `main_v4`, `main_v5` hold the queries, keys and values per batch. -/
abbrev W3 : Dev nD → Valuation τ sig (Elt F) := fun c => StableHlo.after hostOps1 (W2 m ρ c)
/-- `W3` read at the TensorCore's references: the contents the attention region is entered at. -/
abbrev V3 : (c : Dev nD) → (b : Ref sig .tc) → Buf (Elt F) ((c : Thread nD τ).loc b) := fun c b => W3 m ρ c b
/-- After the attention region: each of its five arrays at the fold of the region's write-backs over all 32 points,
    every other buffer as at `W3`. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- `W4` read at the TensorCore's references. -/
abbrev V4 : (c : Dev nD) → (b : Ref sig .tc) → Buf (Elt F) ((c : Thread nD τ).loc b) := fun c b => W4 m ρ c b
/-- Leaving the attention region: an array holds its fold, any other buffer what it held on entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The valuations read at particular buffers

The projection's three results are windows 2, 3, 4 of its region; the attention's two are windows 3 and 4 of its. -/

theorem W2_q (c : Dev nD) : W2 m ρ c (Proc.devRef .tc main_v2_0) = (dat0 (V1 m ρ) c).arrAt 2 cfg0.N := W2_arr m ρ c 2
theorem W2_k (c : Dev nD) : W2 m ρ c (Proc.devRef .tc main_v2_1) = (dat0 (V1 m ρ) c).arrAt 3 cfg0.N := W2_arr m ρ c 3
theorem W2_v (c : Dev nD) : W2 m ρ c (Proc.devRef .tc main_v2_2) = (dat0 (V1 m ρ) c).arrAt 4 cfg0.N := W2_arr m ρ c 4
theorem W4_out (c : Dev nD) : W4 m ρ c (Proc.devRef .tc main_v6_0) = (dat1 (V3 m ρ) c).arrAt 3 cfg1.N := W4_arr m ρ c 3
theorem W4_wts (c : Dev nD) : W4 m ρ c (Proc.devRef .tc main_v6_1) = (dat1 (V3 m ρ) c).arrAt 4 cfg1.N := W4_arr m ρ c 4

/-! An argument is no array of either region and no host operation writes it: walking the fold back from `W4`, every
    step leaves its buffer alone, down to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data per pipeline and what rides beside the buffers -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers a core carries its generator register at some state and the record that it owes nothing. -/
abbrev R (c : Dev nD) : sProp 𝕄 := iprop((∃ r, prngReg c r) ∗ ∃ W, owes (c : Thread nD τ) (0 : CellTallies nD τ sig Unit) W)
/-- A stretch of host operations from the contents `W`: it takes every unscoped buffer at `W c` to
    `StableHlo.after ops (W c)`, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is one of those the carried state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, without the owing record: every unscoped buffer at `W4`, the register at some state. -/
abbrev Tₙ (c : Dev nD) : sProp 𝕄 := iprop(StableHlo.held (c : Thread nD τ) (Pipeline.ucRefs τ sig) (W4 m ρ c) ∗ ∃ r, prngReg c r)

/-! ## The two regions

A region is entered with every unscoped buffer at the entry valuation. Its five arrays are split off (the rest stays
aside as `Z`), the register goes into the pipeline's invariant and comes back, and at the exit the arrays — now at
their folds — rejoin the rest, which is exactly the exit valuation. The body obligation is the hypothesis. -/

set_option backward.isDefEq.respectTransparency.types false in
/-- The projection region: from `W1` to `W2`. -/
def reg0 (hb0 : ∀ c : Dev nD, BodyObligation (dat0 (F := F) (V1 m ρ) c) (defs₀ (F := F)) Variants.none () Set.univ) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: from `W3` to `W4`, ending owing nothing. -/
def reg1 (hb1 : ∀ c : Dev nD, BodyObligation (dat1 (F := F) (V3 m ρ) c) (defs₀ (F := F)) Variants.none () Set.univ) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

/-- The four items in @main's order. -/
abbrev segs (hb0 : ∀ c : Dev nD, BodyObligation (dat0 (F := F) (V1 m ρ) c) (defs₀ (F := F)) Variants.none () Set.univ)
    (hb1 : ∀ c : Dev nD, BodyObligation (dat1 (F := F) (V3 m ρ) c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1) ]
/-- @main is the run of these items. -/
theorem main_run (hb0 : ∀ c : Dev nD, BodyObligation (dat0 (F := F) (V1 m ρ) c) (defs₀ (F := F)) Variants.none () Set.univ)
    (hb1 : ∀ c : Dev nD, BodyObligation (dat1 (F := F) (V3 m ρ) c) (defs₀ (F := F)) Variants.none () Set.univ) (c : Dev nD) : main (F := F) c = Pipeline.Seg.run (segs m ρ hb0 hb1) := (main_chain c).trans (by chain_rfl)

set_option backward.isDefEq.respectTransparency.types false in
/-- From any memory with zero counters, every weakly fair execution of @main terminates, nothing faulting, and the final
    memory agrees with `W4` on every unscoped buffer of every core. -/
theorem run_all (hb0 : ∀ c : Dev nD, BodyObligation (dat0 (F := F) (V1 m ρ) c) (defs₀ (F := F)) Variants.none () Set.univ)
    (hb1 : ∀ c : Dev nD, BodyObligation (dat1 (F := F) (V3 m ρ) c) (defs₀ (F := F)) Variants.none () Set.univ) :
    θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- In particular every argument ends holding what it held at launch. -/
theorem frame (hb0 : ∀ c : Dev nD, BodyObligation (dat0 (F := F) (V1 m ρ) c) (defs₀ (F := F)) Variants.none () Set.univ)
    (hb1 : ∀ c : Dev nD, BodyObligation (dat1 (F := F) (V3 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (Q := fun r => ∀ c : Dev nD, ∀ b ∈ Pipeline.ucRefs τ sig, r.2.mem (((c : Thread nD τ)).1, b) = W4 m ρ c b)
    (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ hb0 hb1)

end Cert.KernelIdeal.Hand

end
-- ==== Proof.Val.Host.lean ====
/-
  What the host operations around the two regions leave, for any contents `W` of the buffers they start from:
  before the projection, the three weights side by side and the activations flattened; between the regions, each
  projected array [16384, 64] regrouped as [8, 2048, 64].
-/
import proofs.«151917_j9363028705719_2_alg».proof.Proof.Gen.KernelIdeal.Launch
import Idealize.ShloMosaic.Lib.StableHlo.Run

noncomputable section

namespace Cert.KernelIdeal.Val

open Idealize.ShloMosaic Idealize.ShloMosaic.TcCoe Idealize.SL.Sem Idealize.ShloMosaic.StableHlo Cert.KernelIdeal Cert.KernelIdeal.Gen

variable {F : FTy → Type} [FloatOps F] [Cert.KernelIdeal.Facts]

theorem host0_w (W : Valuation τ sig (Elt F)) :
    (StableHlo.after (hostOps0 (F := F)) W (Proc.devRef .tc main_v0) : S1024x192.Idx → Elt F .f32)
      = concatenate S1024x192 1 [⟨S1024x64, W (Proc.devRef .tc main_arg1)⟩, ⟨S1024x64, W (Proc.devRef .tc main_arg2)⟩, ⟨S1024x64, W (Proc.devRef .tc main_arg3)⟩] Facts₀.concatenates_S1024x64_S1024x64_S1024x64_S1024x192_d1 := by
  after_results
  rfl

theorem host0_x (W : Valuation τ sig (Elt F)) :
    (StableHlo.after (hostOps0 (F := F)) W (Proc.devRef .tc main_v1) : S16384x1024.Idx → Elt F .f32)
      = shapeCast S16384x1024 (W (Proc.devRef .tc main_arg0)) Facts₀.shapeCasts_S8x2048x1024_S16384x1024 := by
  after_results
  rfl

theorem host1_q (W : Valuation τ sig (Elt F)) :
    (StableHlo.after (hostOps1 (F := F)) W (Proc.devRef .tc main_v3) : S8x2048x64.Idx → Elt F .bf16)
      = shapeCast S8x2048x64 (W (Proc.devRef .tc main_v2_0)) Facts₀.shapeCasts_S16384x64_S8x2048x64 := by
  after_results
  rfl

theorem host1_k (W : Valuation τ sig (Elt F)) :
    (StableHlo.after (hostOps1 (F := F)) W (Proc.devRef .tc main_v4) : S8x2048x64.Idx → Elt F .bf16)
      = shapeCast S8x2048x64 (W (Proc.devRef .tc main_v2_1)) Facts₀.shapeCasts_S16384x64_S8x2048x64 := by
  after_results
  rfl

theorem host1_v (W : Valuation τ sig (Elt F)) :
    (StableHlo.after (hostOps1 (F := F)) W (Proc.devRef .tc main_v5) : S8x2048x64.Idx → Elt F .bf16)
      = shapeCast S8x2048x64 (W (Proc.devRef .tc main_v2_2)) Facts₀.shapeCasts_S16384x64_S8x2048x64 := by
  after_results
  rfl

end Cert.KernelIdeal.Val

end
-- ==== Proof.Val.Spec.lean ====
/-
  The mathematics of the kernel, as functions on extended-real arrays of the literal shapes.

  Projection. With `xf : [16384, 1024]` the flattened activations and `w : [1024, 192]` the three weights side by side,
  the three projected arrays `[16384, 64]` are, at row `r` and column `h`,
      keys    Σ_d xf[r, d] · w[d, 64 + h],      values  Σ_d xf[r, d] · w[d, 128 + h],
      queries (Σ_d xf[r, d] · w[d, h]) · (1/8)  — the literal 1/8 kept as its f32 word.

  Attention. With `q k v : [8, 2048, 64]`:
      scores[b, i, j]  = Σ_h q[b, i, h] · k[b, j, h]
      rowMax[b, i]     = max over j of scores[b, i, j], folded from −∞ (the f32 word of −∞)
      expd[b, i, j]    = exp (scores[b, i, j] − rowMax[b, i])
      rowSum[b, i]     = Σ_j expd[b, i, j]
      weights[b, i, j] = expd[b, i, j] / rowSum[b, i]
      out[b, i, h]     = Σ_j weights[b, i, j] · v[b, j, h]
  Every operation is the exact one on the extended reals (`Ideal.exp`, `Ideal.div`).
-/
import proofs.«151917_j9363028705719_2_alg».proof.KernelIdeal
import Idealize.ShloMosaic.PureOps.Ideal
import Idealize.ShloMosaic.Lib.ValueIdx

noncomputable section

namespace Cert.KernelIdeal.Val

open Idealize.ShloMosaic Cert.KernelIdeal

/-- The kernel's scale 1/8, as the f32 word it is printed with. -/
abbrev eighth : EReal := Ideal.ofBits .f32 0x3E000000#32
/-- −∞, as the f32 word both programs start their row maximum from. -/
abbrev negInf : EReal := Ideal.ofBits .f32 0xFF800000#32

/-! ## Projection -/

/-- Entry `(r, d)` of the flattened activations, `r` the row of the projected entry `i`. -/
abbrev pxIdx (i : S16384x64.Idx) (d : Fin 1024) : S16384x1024.Idx := fun a => match a with
  | ⟨0, _⟩ => ⟨(i 0).val, (i 0).isLt⟩
  | ⟨1, _⟩ => ⟨d.val, d.isLt⟩
/-- Entry `(d, off + h)` of the concatenated weight, `h` the column of the projected entry `i`. -/
abbrev pwIdx (off : Nat) (hoff : off + 64 ≤ 192) (i : S16384x64.Idx) (d : Fin 1024) : S1024x192.Idx := fun a => match a with
  | ⟨0, _⟩ => ⟨d.val, d.isLt⟩
  | ⟨1, _⟩ => ⟨off + (i 1).val, Nat.lt_of_lt_of_le (Nat.add_lt_add_left (i 1).isLt off) hoff⟩

/-- Columns `off … off + 63` of `xf · w`. -/
def projDot (off : Nat) (hoff : off + 64 ≤ 192) (xf : S16384x1024.Idx → EReal) (w : S1024x192.Idx → EReal) :
    S16384x64.Idx → EReal :=
  fun i => ∑ d : Fin 1024, xf (pxIdx i d) * w (pwIdx off hoff i d)

def projQ (xf : S16384x1024.Idx → EReal) (w : S1024x192.Idx → EReal) : S16384x64.Idx → EReal :=
  fun i => projDot 0 (by decide) xf w i * eighth
def projK (xf : S16384x1024.Idx → EReal) (w : S1024x192.Idx → EReal) : S16384x64.Idx → EReal :=
  projDot 64 (by decide) xf w
def projV (xf : S16384x1024.Idx → EReal) (w : S1024x192.Idx → EReal) : S16384x64.Idx → EReal :=
  projDot 128 (by decide) xf w

/-! ## Attention, on one grid point's blocks

  `x0 : [1, 512, 64]` a block of query rows, `x1 x2 : [1, 2048, 64]` the batch's keys and values. -/

open ValueIdx in
def bScores (x0 : S1x512x64.Idx → EReal) (x1 : S1x2048x64.Idx → EReal) (r : Fin 512) (j : Fin 2048) : EReal :=
  ∑ h : Fin 64, x0 (ix3 (0 : Fin 1) r h) * x1 (ix3 (0 : Fin 1) j h)
def bMax (x0 : S1x512x64.Idx → EReal) (x1 : S1x2048x64.Idx → EReal) (r : Fin 512) : EReal :=
  Finset.univ.fold max negInf (fun j : Fin 2048 => bScores x0 x1 r j)
def bExp (x0 : S1x512x64.Idx → EReal) (x1 : S1x2048x64.Idx → EReal) (r : Fin 512) (j : Fin 2048) : EReal :=
  Ideal.exp (bScores x0 x1 r j - bMax x0 x1 r)
def bSum (x0 : S1x512x64.Idx → EReal) (x1 : S1x2048x64.Idx → EReal) (r : Fin 512) : EReal :=
  ∑ j : Fin 2048, bExp x0 x1 r j
def bW (x0 : S1x512x64.Idx → EReal) (x1 : S1x2048x64.Idx → EReal) (r : Fin 512) (j : Fin 2048) : EReal :=
  Ideal.div (bExp x0 x1 r j) (bSum x0 x1 r)
open ValueIdx in
def bOut (x0 : S1x512x64.Idx → EReal) (x1 x2 : S1x2048x64.Idx → EReal) (r : Fin 512) (h : Fin 64) : EReal :=
  ∑ j : Fin 2048, bW x0 x1 r j * x2 (ix3 (0 : Fin 1) j h)

/-! ## Attention -/

/-- `(b, i, h)` of the queries and `(b, j, h)` of the keys, for the score entry `(b, i, j)`. -/
abbrev sqIdx (i : S8x2048x2048.Idx) (h : Fin 64) : S8x2048x64.Idx := fun a => match a with
  | ⟨0, _⟩ => ⟨(i 0).val, (i 0).isLt⟩
  | ⟨1, _⟩ => ⟨(i 1).val, (i 1).isLt⟩
  | ⟨2, _⟩ => ⟨h.val, h.isLt⟩
abbrev skIdx (i : S8x2048x2048.Idx) (h : Fin 64) : S8x2048x64.Idx := fun a => match a with
  | ⟨0, _⟩ => ⟨(i 0).val, (i 0).isLt⟩
  | ⟨1, _⟩ => ⟨(i 2).val, (i 2).isLt⟩
  | ⟨2, _⟩ => ⟨h.val, h.isLt⟩

def scores (q k : S8x2048x64.Idx → EReal) : S8x2048x2048.Idx → EReal :=
  fun i => ∑ h : Fin 64, q (sqIdx i h) * k (skIdx i h)

/-- Entry `j` of the row of `i`: `(b, r, j)` for `i = (b, r, _)`. -/
abbrev rowAt (i : S8x2048x2048.Idx) (j : Fin 2048) : S8x2048x2048.Idx := fun a => match a with
  | ⟨0, _⟩ => ⟨(i 0).val, (i 0).isLt⟩
  | ⟨1, _⟩ => ⟨(i 1).val, (i 1).isLt⟩
  | ⟨2, _⟩ => ⟨j.val, j.isLt⟩

def rowMax (s : S8x2048x2048.Idx → EReal) (i : S8x2048x2048.Idx) : EReal :=
  Finset.univ.fold max negInf (fun j : Fin 2048 => s (rowAt i j))
def expd (s : S8x2048x2048.Idx → EReal) (i : S8x2048x2048.Idx) : EReal :=
  Ideal.exp (s i - rowMax s i)
def rowSum (s : S8x2048x2048.Idx → EReal) (i : S8x2048x2048.Idx) : EReal :=
  ∑ j : Fin 2048, expd s (rowAt i j)
def softmax (s : S8x2048x2048.Idx → EReal) : S8x2048x2048.Idx → EReal :=
  fun i => Ideal.div (expd s i) (rowSum s i)

def weights (q k : S8x2048x64.Idx → EReal) : S8x2048x2048.Idx → EReal := softmax (scores q k)

/-- `(b, i, j)` of the weights and `(b, j, h)` of the values, for the output entry `(b, i, h)`. -/
abbrev owIdx (i : S8x2048x64.Idx) (j : Fin 2048) : S8x2048x2048.Idx := fun a => match a with
  | ⟨0, _⟩ => ⟨(i 0).val, (i 0).isLt⟩
  | ⟨1, _⟩ => ⟨(i 1).val, (i 1).isLt⟩
  | ⟨2, _⟩ => ⟨j.val, j.isLt⟩
abbrev ovIdx (i : S8x2048x64.Idx) (j : Fin 2048) : S8x2048x64.Idx := fun a => match a with
  | ⟨0, _⟩ => ⟨(i 0).val, (i 0).isLt⟩
  | ⟨1, _⟩ => ⟨j.val, j.isLt⟩
  | ⟨2, _⟩ => ⟨(i 2).val, (i 2).isLt⟩

def attnOut (q k v : S8x2048x64.Idx → EReal) : S8x2048x64.Idx → EReal :=
  fun i => ∑ j : Fin 2048, weights q k (owIdx i j) * v (ovIdx i j)

end Cert.KernelIdeal.Val

end
-- ==== Proof.Val.Proj.lean ====
/-
  The projection region, read as whole arrays.

  The region walks 16 grid points. Point `t` takes rows `1024·t … 1024·t + 1023` of the flattened activations
  `x : [16384, 1024]` and the whole concatenated weight `W : [1024, 192]`, forms the product of the two
  (`[1024, 192]`, one contraction over the 1024 shared columns / rows), and writes three column slices of it to rows
  `1024·t … 1024·t + 1023` of three arrays `[16384, 64]`: columns 0–63 scaled by 1/8 (the queries), columns 64–127
  (the keys), columns 128–191 (the values). On the extended reals a change of float format is the identity, so the
  entry `(r, h)` of each written block is the plain sum `Σ_d x[1024·t + r, d] · W[d, off + h]` (times 1/8 for the
  queries). The 16 blocks of 1024 rows tile each output array, so after the region each array is that sum at every
  index: `projQ`, `projK`, `projV` of the two arrays the region found.
-/
import proofs.«151917_j9363028705719_2_alg».proof.Proof.KI.Data0
import proofs.«151917_j9363028705719_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Cert.KernelIdeal Cert.KernelIdeal.Gen
open Idealize.ShloMosaic.ValueIdx

/-! ## The body's arithmetic at an index

The body multiplies its block of 1024 rows of the activations by the whole weight: one contraction over the 1024
columns of the activations (the rows of the weight). -/

/-- The left operand of the product is read at the row of the output entry … -/
theorem dot_lhs_row (i : S1024x192.Idx) (q : dot_S1024x1024_S1024x192_S1024x192_1_0_0_1_n_n.contr.Idx) :
    (dot_S1024x1024_S1024x192_S1024x192_1_0_0_1_n_n.lhsIdx i q 0).val = (i 0).val := by
  unfold DotDims.lhsIdx
  rw [dif_neg (show ¬(0 : Fin S1024x1024.rank) ∈ dot_S1024x1024_S1024x192_S1024x192_1_0_0_1_n_n.lhsBatch by decide), dif_pos (show (0 : Fin S1024x1024.rank) ∈ dot_S1024x1024_S1024x192_S1024x192_1_0_0_1_n_n.lhsNonContracting by decide)]
  rfl
/-- … and at the contracted column; -/
theorem dot_lhs_col (i : S1024x192.Idx) (q : dot_S1024x1024_S1024x192_S1024x192_1_0_0_1_n_n.contr.Idx) :
    (dot_S1024x1024_S1024x192_S1024x192_1_0_0_1_n_n.lhsIdx i q 1).val = (q ⟨0, by decide⟩).val :=
  dot_S1024x1024_S1024x192_S1024x192_1_0_0_1_n_n.lhsIdx_val_of_single rfl i q
/-- the right operand at the contracted row … -/
theorem dot_rhs_row (i : S1024x192.Idx) (q : dot_S1024x1024_S1024x192_S1024x192_1_0_0_1_n_n.contr.Idx) :
    (dot_S1024x1024_S1024x192_S1024x192_1_0_0_1_n_n.rhsIdx i q 0).val = (q ⟨0, by decide⟩).val :=
  dot_S1024x1024_S1024x192_S1024x192_1_0_0_1_n_n.rhsIdx_val_of_single rfl i q
/-- … and at the column of the output entry. -/
theorem dot_rhs_col (i : S1024x192.Idx) (q : dot_S1024x1024_S1024x192_S1024x192_1_0_0_1_n_n.contr.Idx) :
    (dot_S1024x1024_S1024x192_S1024x192_1_0_0_1_n_n.rhsIdx i q 1).val = (i 1).val := by
  unfold DotDims.rhsIdx
  rw [dif_neg (show ¬(1 : Fin S1024x192.rank) ∈ dot_S1024x1024_S1024x192_S1024x192_1_0_0_1_n_n.rhsBatch by decide), dif_pos (show (1 : Fin S1024x192.rank) ∈ dot_S1024x1024_S1024x192_S1024x192_1_0_0_1_n_n.rhsNonContracting by decide)]
  rfl

/-- Entry (r, c) of the product of a block of rows with the whole weight: the sum over the 1024 contracted columns. -/
theorem pay1_apply (x0 : Vec Ideal S1024x1024 .f32) (x1 : Vec Ideal S1024x192 .f32) (r : Fin 1024) (c : Fin 192) :
    k0_pay1 (F := Ideal) x0 x1 (ix2 r c) = ∑ d : Fin 1024, x0 (ix2 r d) * x1 (ix2 d c) := by
  unfold k0_pay1
  refine (Ideal.matmul_constant_zero_apply dot_S1024x1024_S1024x192_S1024x192_1_0_0_1_n_n none _ _ (ix2 r c)).trans ?_
  rw [← Equiv.sum_comp (contrEquiv1 dot_S1024x1024_S1024x192_S1024x192_1_0_0_1_n_n 1024 rfl rfl).symm]
  refine Finset.sum_congr rfl fun k _ => ?_
  have hk := contrEquiv1_symm_val dot_S1024x1024_S1024x192_S1024x192_1_0_0_1_n_n 1024 rfl rfl k
  have el : dot_S1024x1024_S1024x192_S1024x192_1_0_0_1_n_n.lhsIdx (ix2 r c) ((contrEquiv1 dot_S1024x1024_S1024x192_S1024x192_1_0_0_1_n_n 1024 rfl rfl).symm k) = ix2 r k := funext fun a => Fin.ext (by
    match a with
    | ⟨0, _⟩ => exact dot_lhs_row _ _
    | ⟨1, _⟩ => exact (dot_lhs_col _ _).trans hk)
  have er : dot_S1024x1024_S1024x192_S1024x192_1_0_0_1_n_n.rhsIdx (ix2 r c) ((contrEquiv1 dot_S1024x1024_S1024x192_S1024x192_1_0_0_1_n_n 1024 rfl rfl).symm k) = ix2 k c := funext fun a => Fin.ext (by
    match a with
    | ⟨0, _⟩ => exact (dot_rhs_row _ _).trans hk
    | ⟨1, _⟩ => exact dot_rhs_col _ _)
  rw [el, er, shapeCast_self, shapeCast_self]
  rfl

/-- The queries' block: the first 64 columns of the product, each scaled by 1/8. -/
theorem pay2_apply (x0 : Vec Ideal S1024x1024 .f32) (x1 : Vec Ideal S1024x192 .f32) (r : Fin 1024) (h : Fin 64) :
    k0_pay2 (F := Ideal) x0 x1 (ix2 r h)
      = (∑ d : Fin 1024, x0 (ix2 r d) * x1 (ix2 d (⟨h.val, by omega⟩ : Fin 192))) * eighth := by
  have e := extractStridedSlice_apply (s := S1024x192) (t := S1024x64) ![0, 0] (k0_pay1 (F := Ideal) x0 x1) slices_S1024x192_o0_0_S1024x64 (ix2 r h) (ix2 r (⟨h.val, by omega⟩ : Fin 192)) (fun a => by
    match a with
    | ⟨0, _⟩ => show r.val = 0 + r.val; omega
    | ⟨1, _⟩ => show h.val = 0 + h.val; omega)
  unfold k0_pay2
  show extractStridedSlice S1024x64 ![0, 0] (k0_pay1 (F := Ideal) x0 x1) slices_S1024x192_o0_0_S1024x64 (ix2 r h) * eighth = _
  rw [e, pay1_apply]

/-- The keys' block: columns 64–127 of the product. -/
theorem pay3_apply (x0 : Vec Ideal S1024x1024 .f32) (x1 : Vec Ideal S1024x192 .f32) (r : Fin 1024) (h : Fin 64) :
    k0_pay3 (F := Ideal) x0 x1 (ix2 r h)
      = ∑ d : Fin 1024, x0 (ix2 r d) * x1 (ix2 d (⟨64 + h.val, by omega⟩ : Fin 192)) := by
  have e := extractStridedSlice_apply (s := S1024x192) (t := S1024x64) ![0, 64] (k0_pay1 (F := Ideal) x0 x1) slices_S1024x192_o0_64_S1024x64 (ix2 r h) (ix2 r (⟨64 + h.val, by omega⟩ : Fin 192)) (fun a => by
    match a with
    | ⟨0, _⟩ => show r.val = 0 + r.val; omega
    | ⟨1, _⟩ => show 64 + h.val = 64 + h.val; rfl)
  unfold k0_pay3
  show extractStridedSlice S1024x64 ![0, 64] (k0_pay1 (F := Ideal) x0 x1) slices_S1024x192_o0_64_S1024x64 (ix2 r h) = _
  rw [e, pay1_apply]

/-- The values' block: columns 128–191 of the product. -/
theorem pay4_apply (x0 : Vec Ideal S1024x1024 .f32) (x1 : Vec Ideal S1024x192 .f32) (r : Fin 1024) (h : Fin 64) :
    k0_pay4 (F := Ideal) x0 x1 (ix2 r h)
      = ∑ d : Fin 1024, x0 (ix2 r d) * x1 (ix2 d (⟨128 + h.val, by omega⟩ : Fin 192)) := by
  have e := extractStridedSlice_apply (s := S1024x192) (t := S1024x64) ![0, 128] (k0_pay1 (F := Ideal) x0 x1) slices_S1024x192_o0_128_S1024x64 (ix2 r h) (ix2 r (⟨128 + h.val, by omega⟩ : Fin 192)) (fun a => by
    match a with
    | ⟨0, _⟩ => show r.val = 0 + r.val; omega
    | ⟨1, _⟩ => show 128 + h.val = 128 + h.val; rfl)
  unfold k0_pay4
  show extractStridedSlice S1024x64 ![0, 128] (k0_pay1 (F := Ideal) x0 x1) slices_S1024x192_o0_128_S1024x64 (ix2 r h) = _
  rw [e, pay1_apply]

/-! ## One grid point's blocks against the whole arrays

Point `t` of the 16 reads rows `1024·t … 1024·t + 1023` of the activations and the whole weight, and writes rows
`1024·t … 1024·t + 1023` of each projected array. -/

theorem zero_offsets : (![0, 0] : Fin 2 → Nat) = fun _ => 0 := funext fun a => by fin_cases a <;> rfl

/-- The printed index maps over the 16 points: the activations' block and the three outputs' blocks move down the
    rows with the point and stay at column block 0; the weight's block is the whole array at every point. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The index of the flattened activations that entry `(r, d)` of point `T`'s block of rows is. -/
abbrev xRow (T : Nat) (hT : T < 16) (r d : Fin 1024) : S16384x1024.Idx :=
  ix2 (⟨T * 1024 + r.val, by omega⟩ : Fin 16384) d

/-- A projected column block of point `T`'s rows, against the whole arrays: when the block of rows `x0` is rows
    `1024·T …` of `A0` and `x1` is all of `A1`, the sum over the contracted axis at block entry `y` is the whole-array
    sum at the array entry `i` in row `1024·T + y₀`, column `y₁`. -/
theorem block_dot (off : Nat) (hoff : off + 64 ≤ 192) (A0 : S16384x1024.Idx → EReal) (A1 : S1024x192.Idx → EReal)
    (x0 : Vec Ideal S1024x1024 .f32) (x1 : Vec Ideal S1024x192 .f32) (T : Nat) (hT : T < 16)
    (h0 : ∀ r d : Fin 1024, x0 (ix2 r d) = A0 (xRow T hT r d))
    (h1 : ∀ (d : Fin 1024) (c : Fin 192), x1 (ix2 d c) = A1 (ix2 d c))
    (r : Fin 1024) (h : Fin 64) (i : S16384x64.Idx) (hi0 : (i 0).val = T * 1024 + r.val) (hi1 : (i 1).val = h.val) :
    ∑ d : Fin 1024, x0 (ix2 r d) * x1 (ix2 d (⟨off + h.val, by omega⟩ : Fin 192)) = projDot off hoff A0 A1 i := by
  unfold projDot
  refine Finset.sum_congr rfl fun d _ => ?_
  rw [h0, h1]
  have ea : xRow T hT r d = pxIdx i d := funext fun a => Fin.ext (by
    match a with
    | ⟨0, _⟩ => exact hi0.symm
    | ⟨1, _⟩ => rfl)
  have eb : (ix2 d (⟨off + h.val, by omega⟩ : Fin 192) : S1024x192.Idx) = pwIdx off hoff i d := funext fun a => Fin.ext (by
    match a with
    | ⟨0, _⟩ => rfl
    | ⟨1, _⟩ => show off + h.val = off + (i 1).val; rw [hi1])
  rw [ea, eb]

/-- The queries' block of point `T` is the block of rows `1024·T …` of the scaled first projection. -/
theorem blockQ (A0 : S16384x1024.Idx → EReal) (A1 : S1024x192.Idx → EReal)
    (x0 : Vec Ideal S1024x1024 .f32) (x1 : Vec Ideal S1024x192 .f32) (T : Nat) (hT : T < 16)
    (h0 : ∀ r d : Fin 1024, x0 (ix2 r d) = A0 (xRow T hT r d))
    (h1 : ∀ (d : Fin 1024) (c : Fin 192), x1 (ix2 d c) = A1 (ix2 d c))
    (y : S1024x64.Idx) (i : S16384x64.Idx) (hi0 : (i 0).val = T * 1024 + (y 0).val) (hi1 : (i 1).val = (y 1).val) :
    k0_pay2 (F := Ideal) x0 x1 y = projQ A0 A1 i := by
  obtain ⟨r, h, rfl⟩ : ∃ (r : Fin 1024) (h : Fin 64), y = ix2 r h := ⟨y 0, y 1, eq_ix2 y⟩
  rw [pay2_apply]
  unfold projQ
  refine congrArg (· * eighth) ?_
  have e := block_dot 0 (by decide) A0 A1 x0 x1 T hT h0 h1 r h i hi0 hi1
  refine Eq.trans (Finset.sum_congr rfl fun d _ => ?_) e
  exact congrArg (fun z : Fin 192 => x0 (ix2 r d) * x1 (ix2 d z)) (Fin.ext (Nat.zero_add _).symm)

/-- The keys' block of point `T` is the block of rows `1024·T …` of the second projection. -/
theorem blockK (A0 : S16384x1024.Idx → EReal) (A1 : S1024x192.Idx → EReal)
    (x0 : Vec Ideal S1024x1024 .f32) (x1 : Vec Ideal S1024x192 .f32) (T : Nat) (hT : T < 16)
    (h0 : ∀ r d : Fin 1024, x0 (ix2 r d) = A0 (xRow T hT r d))
    (h1 : ∀ (d : Fin 1024) (c : Fin 192), x1 (ix2 d c) = A1 (ix2 d c))
    (y : S1024x64.Idx) (i : S16384x64.Idx) (hi0 : (i 0).val = T * 1024 + (y 0).val) (hi1 : (i 1).val = (y 1).val) :
    k0_pay3 (F := Ideal) x0 x1 y = projK A0 A1 i := by
  obtain ⟨r, h, rfl⟩ : ∃ (r : Fin 1024) (h : Fin 64), y = ix2 r h := ⟨y 0, y 1, eq_ix2 y⟩
  rw [pay3_apply]
  exact block_dot 64 (by decide) A0 A1 x0 x1 T hT h0 h1 r h i hi0 hi1

/-- The values' block of point `T` is the block of rows `1024·T …` of the third projection. -/
theorem blockV (A0 : S16384x1024.Idx → EReal) (A1 : S1024x192.Idx → EReal)
    (x0 : Vec Ideal S1024x1024 .f32) (x1 : Vec Ideal S1024x192 .f32) (T : Nat) (hT : T < 16)
    (h0 : ∀ r d : Fin 1024, x0 (ix2 r d) = A0 (xRow T hT r d))
    (h1 : ∀ (d : Fin 1024) (c : Fin 192), x1 (ix2 d c) = A1 (ix2 d c))
    (y : S1024x64.Idx) (i : S16384x64.Idx) (hi0 : (i 0).val = T * 1024 + (y 0).val) (hi1 : (i 1).val = (y 1).val) :
    k0_pay4 (F := Ideal) x0 x1 y = projV A0 A1 i := by
  obtain ⟨r, h, rfl⟩ : ∃ (r : Fin 1024) (h : Fin 64), y = ix2 r h := ⟨y 0, y 1, eq_ix2 y⟩
  rw [pay4_apply]
  exact block_dot 128 (by decide) A0 A1 x0 x1 T hT h0 h1 r h i hi0 hi1

/-! ## From the blocks to the arrays -/

variable (V : (c : Dev nD) → (b : Ref sig .tc) → Buf (Elt Ideal) ((c : Thread nD τ).loc b))

/-- What point `t` writes back to the queries' array is block `t` of the whole-array queries. -/
theorem flushed_2 (c : Dev nD) (t : Fin cfg0.N) :
    (Hand.dat0 (F := Ideal) V c).flushed 2 t
      = ((cfg0.win 2).blk t).view.read (Elt Ideal) (projQ (V c main_v1) (V c main_v0)) := by
  show (cfg0.win 2).cut (grid0.coords t) ((Hand.dat0 (F := Ideal) V c).after 2 t) = _
  rw [Hand.after0_2]
  unfold Hand.out0_2
  rw [View.canon_unit_zero zero_offsets]
  simp only [View.ld_unit_zero (S := S1024x1024) zero_offsets, View.ld_unit_zero (S := S1024x192) zero_offsets]
  obtain ⟨e00, e01, e10, e11, e20, e21, e30, e31, e40, e41⟩ := index_maps t
  have ht : t.val < 16 := lt_of_lt_of_eq t.isLt (show cfg0.N = 16 from N_0)
  funext j
  refine blockQ (V c main_v1) (V c main_v0) (Hand.iblk0 V c 0 t) (Hand.iblk0 V c 1 t) t.val ht ?_ ?_ _
    (((cfg0.win 2).blk t).view.emb j) ?_ ?_
  · intro r d
    show V c main_v1 (((cfg0.win 0).blk t).view.emb (ix2 r d)) = V c main_v1 (xRow t.val ht r d)
    refine congrArg (V c main_v1) (funext fun a => Fin.ext ?_)
    match a with
    | ⟨0, _⟩ => show win0_0.index t (0 : Fin 2) * 1024 + 1 * r.val = t.val * 1024 + r.val; omega
    | ⟨1, _⟩ => show win0_0.index t (1 : Fin 2) * 1024 + 1 * d.val = d.val; omega
  · intro d k
    show V c main_v0 (((cfg0.win 1).blk t).view.emb (ix2 d k)) = V c main_v0 (ix2 d k)
    refine congrArg (V c main_v0) (funext fun a => Fin.ext ?_)
    match a with
    | ⟨0, _⟩ => show win0_1.index t (0 : Fin 2) * 1024 + 1 * d.val = d.val; omega
    | ⟨1, _⟩ => show win0_1.index t (1 : Fin 2) * 192 + 1 * k.val = k.val; omega
  · show win0_2.index t (0 : Fin 2) * 1024 + 1 * (j 0).val = t.val * 1024 + (j 0).val; omega
  · show win0_2.index t (1 : Fin 2) * 64 + 1 * (j 1).val = (j 1).val; omega

/-- An index of the queries' array is in point `t`'s block iff each coordinate is in the block's range on its axis. -/
theorem mem_blk_2 (t : Fin cfg0.N) (i : S16384x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v2_0).slice (win0_2.rect t)).set ↔ _
  rw [View.set_slice_whole, Rect.mem_set_unit]
  exact Iff.rfl

/-- Row `r` of the queries' array is written back by point `r / 1024`: the 16 blocks of 1024 rows tile the array. -/
theorem cover_2 (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have hN : cfg0.N = 16 := N_0
  refine ⟨⟨(i 0).val / 1024, by rw [hN]; omega⟩, flush0_2 _, ?_⟩
  rw [mem_blk_2]
  obtain ⟨e00, e01, e10, e11, e20, e21, e30, e31, e40, e41⟩ := index_maps ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e20]; show (i 0).val / 1024 * 1024 ≤ (i 0).val ∧ (i 0).val < (i 0).val / 1024 * 1024 + 1024; omega
  | ⟨1, _⟩ =>
    show win0_2.index _ (1 : Fin 2) * 64 ≤ (i 1).val ∧ (i 1).val < win0_2.index _ (1 : Fin 2) * 64 + 64
    rw [e21]; omega

/-- After the region the queries' array is the whole-array queries of the activations and the weight it found. -/
theorem arr0_2 (c : Dev nD) :
    (Hand.dat0 (F := Ideal) V c).arrAt 2 cfg0.N = projQ (V c main_v1) (V c main_v0) :=
  (Hand.dat0 (F := Ideal) V c).arrAt_eq_of_cover 2 (projQ (V c main_v1) (V c main_v0))
    (fun t _ => flushed_2 V c t) (cover_2)

/-- What point `t` writes back to the keys' array is block `t` of the whole-array keys. -/
theorem flushed_3 (c : Dev nD) (t : Fin cfg0.N) :
    (Hand.dat0 (F := Ideal) V c).flushed 3 t
      = ((cfg0.win 3).blk t).view.read (Elt Ideal) (projK (V c main_v1) (V c main_v0)) := by
  show (cfg0.win 3).cut (grid0.coords t) ((Hand.dat0 (F := Ideal) V c).after 3 t) = _
  rw [Hand.after0_3]
  unfold Hand.out0_3
  rw [View.canon_unit_zero zero_offsets]
  simp only [View.ld_unit_zero (S := S1024x1024) zero_offsets, View.ld_unit_zero (S := S1024x192) zero_offsets]
  obtain ⟨e00, e01, e10, e11, e20, e21, e30, e31, e40, e41⟩ := index_maps t
  have ht : t.val < 16 := lt_of_lt_of_eq t.isLt (show cfg0.N = 16 from N_0)
  funext j
  refine blockK (V c main_v1) (V c main_v0) (Hand.iblk0 V c 0 t) (Hand.iblk0 V c 1 t) t.val ht ?_ ?_ _
    (((cfg0.win 3).blk t).view.emb j) ?_ ?_
  · intro r d
    show V c main_v1 (((cfg0.win 0).blk t).view.emb (ix2 r d)) = V c main_v1 (xRow t.val ht r d)
    refine congrArg (V c main_v1) (funext fun a => Fin.ext ?_)
    match a with
    | ⟨0, _⟩ => show win0_0.index t (0 : Fin 2) * 1024 + 1 * r.val = t.val * 1024 + r.val; omega
    | ⟨1, _⟩ => show win0_0.index t (1 : Fin 2) * 1024 + 1 * d.val = d.val; omega
  · intro d k
    show V c main_v0 (((cfg0.win 1).blk t).view.emb (ix2 d k)) = V c main_v0 (ix2 d k)
    refine congrArg (V c main_v0) (funext fun a => Fin.ext ?_)
    match a with
    | ⟨0, _⟩ => show win0_1.index t (0 : Fin 2) * 1024 + 1 * d.val = d.val; omega
    | ⟨1, _⟩ => show win0_1.index t (1 : Fin 2) * 192 + 1 * k.val = k.val; omega
  · show win0_3.index t (0 : Fin 2) * 1024 + 1 * (j 0).val = t.val * 1024 + (j 0).val; omega
  · show win0_3.index t (1 : Fin 2) * 64 + 1 * (j 1).val = (j 1).val; omega

/-- An index of the keys' array is in point `t`'s block iff each coordinate is in the block's range on its axis. -/
theorem mem_blk_3 (t : Fin cfg0.N) (i : S16384x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v2_1).slice (win0_3.rect t)).set ↔ _
  rw [View.set_slice_whole, Rect.mem_set_unit]
  exact Iff.rfl

/-- Row `r` of the keys' array is written back by point `r / 1024`: the 16 blocks of 1024 rows tile the array. -/
theorem cover_3 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 16 := N_0
  refine ⟨⟨(i 0).val / 1024, by rw [hN]; omega⟩, flush0_3 _, ?_⟩
  rw [mem_blk_3]
  obtain ⟨e00, e01, e10, e11, e20, e21, e30, e31, e40, e41⟩ := index_maps ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e30]; show (i 0).val / 1024 * 1024 ≤ (i 0).val ∧ (i 0).val < (i 0).val / 1024 * 1024 + 1024; omega
  | ⟨1, _⟩ =>
    show win0_3.index _ (1 : Fin 2) * 64 ≤ (i 1).val ∧ (i 1).val < win0_3.index _ (1 : Fin 2) * 64 + 64
    rw [e31]; omega

/-- After the region the keys' array is the whole-array keys of the activations and the weight it found. -/
theorem arr0_3 (c : Dev nD) :
    (Hand.dat0 (F := Ideal) V c).arrAt 3 cfg0.N = projK (V c main_v1) (V c main_v0) :=
  (Hand.dat0 (F := Ideal) V c).arrAt_eq_of_cover 3 (projK (V c main_v1) (V c main_v0))
    (fun t _ => flushed_3 V c t) (cover_3)

/-- What point `t` writes back to the values' array is block `t` of the whole-array values. -/
theorem flushed_4 (c : Dev nD) (t : Fin cfg0.N) :
    (Hand.dat0 (F := Ideal) V c).flushed 4 t
      = ((cfg0.win 4).blk t).view.read (Elt Ideal) (projV (V c main_v1) (V c main_v0)) := by
  show (cfg0.win 4).cut (grid0.coords t) ((Hand.dat0 (F := Ideal) V c).after 4 t) = _
  rw [Hand.after0_4]
  unfold Hand.out0_4
  rw [View.canon_unit_zero zero_offsets]
  simp only [View.ld_unit_zero (S := S1024x1024) zero_offsets, View.ld_unit_zero (S := S1024x192) zero_offsets]
  obtain ⟨e00, e01, e10, e11, e20, e21, e30, e31, e40, e41⟩ := index_maps t
  have ht : t.val < 16 := lt_of_lt_of_eq t.isLt (show cfg0.N = 16 from N_0)
  funext j
  refine blockV (V c main_v1) (V c main_v0) (Hand.iblk0 V c 0 t) (Hand.iblk0 V c 1 t) t.val ht ?_ ?_ _
    (((cfg0.win 4).blk t).view.emb j) ?_ ?_
  · intro r d
    show V c main_v1 (((cfg0.win 0).blk t).view.emb (ix2 r d)) = V c main_v1 (xRow t.val ht r d)
    refine congrArg (V c main_v1) (funext fun a => Fin.ext ?_)
    match a with
    | ⟨0, _⟩ => show win0_0.index t (0 : Fin 2) * 1024 + 1 * r.val = t.val * 1024 + r.val; omega
    | ⟨1, _⟩ => show win0_0.index t (1 : Fin 2) * 1024 + 1 * d.val = d.val; omega
  · intro d k
    show V c main_v0 (((cfg0.win 1).blk t).view.emb (ix2 d k)) = V c main_v0 (ix2 d k)
    refine congrArg (V c main_v0) (funext fun a => Fin.ext ?_)
    match a with
    | ⟨0, _⟩ => show win0_1.index t (0 : Fin 2) * 1024 + 1 * d.val = d.val; omega
    | ⟨1, _⟩ => show win0_1.index t (1 : Fin 2) * 192 + 1 * k.val = k.val; omega
  · show win0_4.index t (0 : Fin 2) * 1024 + 1 * (j 0).val = t.val * 1024 + (j 0).val; omega
  · show win0_4.index t (1 : Fin 2) * 64 + 1 * (j 1).val = (j 1).val; omega

/-- An index of the values' array is in point `t`'s block iff each coordinate is in the block's range on its axis. -/
theorem mem_blk_4 (t : Fin cfg0.N) (i : S16384x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v2_2).slice (win0_4.rect t)).set ↔ _
  rw [View.set_slice_whole, Rect.mem_set_unit]
  exact Iff.rfl

/-- Row `r` of the values' array is written back by point `r / 1024`: the 16 blocks of 1024 rows tile the array. -/
theorem cover_4 (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  have hN : cfg0.N = 16 := N_0
  refine ⟨⟨(i 0).val / 1024, by rw [hN]; omega⟩, flush0_4 _, ?_⟩
  rw [mem_blk_4]
  obtain ⟨e00, e01, e10, e11, e20, e21, e30, e31, e40, e41⟩ := index_maps ⟨(i 0).val / 1024, by rw [hN]; omega⟩
  intro a
  match a with
  | ⟨0, _⟩ =>
    show win0_4.index _ (0 : Fin 2) * 1024 ≤ (i 0).val ∧ (i 0).val < win0_4.index _ (0 : Fin 2) * 1024 + 1024
    rw [e40]; show (i 0).val / 1024 * 1024 ≤ (i 0).val ∧ (i 0).val < (i 0).val / 1024 * 1024 + 1024; omega
  | ⟨1, _⟩ =>
    show win0_4.index _ (1 : Fin 2) * 64 ≤ (i 1).val ∧ (i 1).val < win0_4.index _ (1 : Fin 2) * 64 + 64
    rw [e41]; omega

/-- After the region the values' array is the whole-array values of the activations and the weight it found. -/
theorem arr0_4 (c : Dev nD) :
    (Hand.dat0 (F := Ideal) V c).arrAt 4 cfg0.N = projV (V c main_v1) (V c main_v0) :=
  (Hand.dat0 (F := Ideal) V c).arrAt_eq_of_cover 4 (projV (V c main_v1) (V c main_v0))
    (fun t _ => flushed_4 V c t) (cover_4)

end Cert.KernelIdeal.Val

end
-- ==== Proof.Val.AttnPayload.lean ====
/-
  One grid point of the attention call, read entry by entry on the extended reals.

  With `x0 : [1, 512, 64]` a block of query rows and `x1 x2 : [1, 2048, 64]` the batch's keys and values, the body
  forms the scores `s[r, j] = Σ_h x0[0, r, h] · x1[0, j, h]`, takes each row's maximum `m[r]` folded from −∞, the
  shifted exponentials `e[r, j] = exp (s[r, j] − m[r])`, their row sums `z[r] = Σ_j e[r, j]`, and stores the weights
  `w[r, j] = e[r, j] / z[r]` and the output `o[r, h] = Σ_j w[r, j] · x2[0, j, h]`. A change of float format is the
  identity on the extended reals, a product into a zero accumulator is the bare sum over the contracted axis, and the
  reshapes between `[1, a, b]` and `[a, b]`, and from a column `[512]` to `[512, 1]` repeated along the row, move no
  entry. So the two stored blocks are `bW` and `bOut` at every index.
-/
import proofs.«151917_j9363028705719_2_alg».proof.Proof.Gen.KernelIdeal.Skeleton
import proofs.«151917_j9363028705719_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Cert.KernelIdeal Cert.KernelIdeal.Gen
open Idealize.ShloMosaic.ValueIdx

namespace AttnBlock

/-! ## Layout steps -/

/-- A column `[512]` kept as `[512, 1]` and repeated along 2048 columns reads, at `(r, j)`, the column at `r`. -/
theorem colRepeat_apply {α : Type} (v : S512.Idx → α) (hc : S512.ShapeCasts S512x1) (hb : S512x1.Broadcasts S512x2048)
    (r : Fin 512) (j : Fin 2048) :
    broadcastTo S512x2048 (shapeCast S512x1 v hc) hb (ix2 r j) = v (ix1 r) := by
  refine (broadcastTo_apply _ hb (ix2 r j) (ix2 r (0 : Fin 1)) fun ax => ?_).trans ?_
  · match ax with
    | ⟨0, _⟩ => rfl
    | ⟨1, _⟩ => rfl
  · exact shapeCast_apply v hc _ _ (by
      rw [Shape.rowMajor_val_one, Shape.rowMajor_val_two]
      show r.val = r.val * 1 + 0
      omega)

/-! ## The two products

For each product the operand indices at output index `i` and contraction index `q` are read off the dimension
numbers, one axis at a time. -/

theorem qkT_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qkT_lhs1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qkT_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qkT_rhs1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries times keys transposed, into a zero accumulator: entry `(r, j)` is the inner product of query row `r` and
key row `j`. -/
theorem qkT_apply (a : FVec Ideal S512x64 .bf16) (b : FVec Ideal S2048x64 .bf16) (r : Fin 512) (j : Fin 2048) :
    matmul dot_S512x64_S2048x64_S512x2048_1_1_0_0_n_n none a b (constant (F := Ideal) S512x2048 .f32 0x00000000#32) (ix2 r j)
      = ∑ h : Fin 64, a (ix2 r h) * b (ix2 j h) := by
  refine (Ideal.matmul_constant_zero_apply dot_S512x64_S2048x64_S512x2048_1_1_0_0_n_n none a b (ix2 r j)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r j)
      ((contrEquiv1 dot_S512x64_S2048x64_S512x2048_1_1_0_0_n_n 64 rfl rfl).symm k) = ix2 r k :=
    funext fun ax => Fin.ext (by
      match ax with
      | ⟨0, _⟩ => exact qkT_lhs0 _ _
      | ⟨1, _⟩ => exact (qkT_lhs1 _ _).trans hk)
  have er : dot_S512x64_S2048x64_S512x2048_1_1_0_0_n_n.rhsIdx (ix2 r j)
      ((contrEquiv1 dot_S512x64_S2048x64_S512x2048_1_1_0_0_n_n 64 rfl rfl).symm k) = ix2 j k :=
    funext fun ax => Fin.ext (by
      match ax with
      | ⟨0, _⟩ => exact qkT_rhs0 _ _
      | ⟨1, _⟩ => exact (qkT_rhs1 _ _).trans hk)
  rw [el, er]

theorem wv_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem wv_lhs1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem wv_rhs0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem wv_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Weights times values, into a zero accumulator: entry `(r, h)` sums over the 2048 keys. -/
theorem wv_apply (w : FVec Ideal S512x2048 .bf16) (v : FVec Ideal S2048x64 .bf16) (r : Fin 512) (h : Fin 64) :
    matmul dot_S512x2048_S2048x64_S512x64_1_0_0_1_n_n none w v (constant (F := Ideal) S512x64 .f32 0x00000000#32) (ix2 r h)
      = ∑ j : Fin 2048, w (ix2 r j) * v (ix2 j h) := by
  refine (Ideal.matmul_constant_zero_apply dot_S512x2048_S2048x64_S512x64_1_0_0_1_n_n none w v (ix2 r h)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r h)
      ((contrEquiv1 dot_S512x2048_S2048x64_S512x64_1_0_0_1_n_n 2048 rfl rfl).symm k) = ix2 r k :=
    funext fun ax => Fin.ext (by
      match ax with
      | ⟨0, _⟩ => exact wv_lhs0 _ _
      | ⟨1, _⟩ => exact (wv_lhs1 _ _).trans hk)
  have er : dot_S512x2048_S2048x64_S512x64_1_0_0_1_n_n.rhsIdx (ix2 r h)
      ((contrEquiv1 dot_S512x2048_S2048x64_S512x64_1_0_0_1_n_n 2048 rfl rfl).symm k) = ix2 k h :=
    funext fun ax => Fin.ext (by
      match ax with
      | ⟨0, _⟩ => exact (wv_rhs0 _ _).trans hk
      | ⟨1, _⟩ => exact wv_rhs1 _ _)
  rw [el, er]

/-! ## The two row reductions -/

/-- The maximum of row `r` of a `[512, 2048]` array, folded from −∞. -/
theorem rowMaxRed_apply (s : FVec Ideal S512x2048 .f32) (h : S512x2048.Reduces [1] S512) (hφ : FKind.Formats .f32)
    (hacc : (0xFF800000#32 : BitVec FTy.f32.bits) = FKind.maximumf.neutral .f32 hφ) (r : Fin 512) :
    multiReduction .maximumf [1] S512 s 0xFF800000#32 h hφ hacc (ix1 r)
      = Finset.univ.fold max negInf (fun k : Fin 2048 => s (ix2 r k)) := by
  refine (Ideal.multiReduction_maximumf_single s _ h hφ hacc (ix1 r)).trans ?_
  show (Finset.univ : Finset (Fin 2048)).fold max negInf (fun k => s (h.lift (ix1 r) k)) = _
  refine congrArg (Finset.univ.fold max negInf) (funext fun k => congrArg s (funext fun ax => Fin.ext ?_))
  match ax with
  | ⟨0, _⟩ => rfl
  | ⟨1, _⟩ => rfl

/-- The sum of row `r` of a `[512, 2048]` array. -/
theorem rowSumRed_apply (s : FVec Ideal S512x2048 .f32) (h : S512x2048.Reduces [1] S512) (hφ : FKind.Formats .f32)
    (hacc : (0x00000000#32 : BitVec FTy.f32.bits) = FKind.add.neutral .f32 hφ) (r : Fin 512) :
    multiReduction .add [1] S512 s 0x00000000#32 h hφ hacc (ix1 r) = ∑ k : Fin 2048, s (ix2 r k) := by
  refine (Ideal.multiReduction_add_single s _ h hφ hacc (ix1 r)).trans ?_
  show ∑ k : Fin 2048, s (h.lift (ix1 r) k) = _
  refine Finset.sum_congr rfl fun k _ => congrArg s (funext fun ax => Fin.ext ?_)
  match ax with
  | ⟨0, _⟩ => rfl
  | ⟨1, _⟩ => rfl

/-! ## The body's arithmetic, stage by stage

The attention body forms the scores block, shifts each row by its maximum and exponentiates, and divides each row by
its sum. Each stage is named here as a function of its operand so that it is read at an index once, over a variable. -/

/-- The scores block `[512, 2048]` of a block of queries and the batch's keys. -/
def scoresBlock (x0 : FVec Ideal S1x512x64 .bf16) (x1 : FVec Ideal S1x2048x64 .bf16) : FVec Ideal S512x2048 .f32 :=
  matmul dot_S512x64_S2048x64_S512x2048_1_1_0_0_n_n none (shapeCast S512x64 x0 shapeCasts_S1x512x64_S512x64)
    (shapeCast S2048x64 x1 shapeCasts_S1x2048x64_S2048x64) (constant S512x2048 .f32 0x00000000#32)

/-- Each row shifted by its maximum, exponentiated. -/
def rowShiftExp (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl)
    shapeCasts_S512_S512x1) broadcasts_S512x1_S512x2048))

/-- Each row of the shifted exponentials divided by its sum. -/
def rowNormalize (s : FVec Ideal S512x2048 .f32) : FVec Ideal S512x2048 .f32 :=
  divf (rowShiftExp s) (broadcastTo S512x2048 (shapeCast S512x1
    (multiReduction .add [1] S512 (rowShiftExp s) 0x00000000#32 reduces_S512x2048_S512 (.inl rfl) rfl)
    shapeCasts_S512_S512x1) broadcasts_S512x1_S512x2048)

theorem scoresBlock_apply (x0 : FVec Ideal S1x512x64 .bf16) (x1 : FVec Ideal S1x2048x64 .bf16) (r : Fin 512) (j : Fin 2048) :
    scoresBlock x0 x1 (ix2 r j) = bScores x0 x1 r j := by
  unfold scoresBlock bScores
  refine (qkT_apply _ _ r j).trans (Finset.sum_congr rfl fun h _ => ?_)
  rw [shapeCast_1ab_ab_apply x0 _ r h, shapeCast_1ab_ab_apply x1 _ j h]

theorem rowShiftExp_apply (s : FVec Ideal S512x2048 .f32) (r : Fin 512) (j : Fin 2048) :
    rowShiftExp s (ix2 r j)
      = Ideal.exp (s (ix2 r j) - Finset.univ.fold max negInf (fun k : Fin 2048 => s (ix2 r k))) :=
  congrArg (fun m => Ideal.exp (s (ix2 r j) - m))
    ((colRepeat_apply _ shapeCasts_S512_S512x1 broadcasts_S512x1_S512x2048 r j).trans
      (rowMaxRed_apply s reduces_S512x2048_S512 (.inl rfl) rfl r))

theorem rowNormalize_apply (s : FVec Ideal S512x2048 .f32) (r : Fin 512) (j : Fin 2048) :
    rowNormalize s (ix2 r j) = Ideal.div (rowShiftExp s (ix2 r j)) (∑ k : Fin 2048, rowShiftExp s (ix2 r k)) :=
  congrArg (Ideal.div (rowShiftExp s (ix2 r j)))
    ((colRepeat_apply _ shapeCasts_S512_S512x1 broadcasts_S512x1_S512x2048 r j).trans
      (rowSumRed_apply (rowShiftExp s) reduces_S512x2048_S512 (.inl rfl) rfl r))

/-! ## The stored values -/

/-- The weights block before it is given its leading unit axis. -/
theorem pay1_eq (x0 : FVec Ideal S1x512x64 .bf16) (x1 : FVec Ideal S1x2048x64 .bf16) :
    Gen.k1_pay1 (F := Ideal) x0 x1 = rowNormalize (scoresBlock x0 x1) := rfl

theorem pay1_apply (x0 : FVec Ideal S1x512x64 .bf16) (x1 : FVec Ideal S1x2048x64 .bf16) (r : Fin 512) (j : Fin 2048) :
    Gen.k1_pay1 (F := Ideal) x0 x1 (ix2 r j) = bW x0 x1 r j := by
  have hE : ∀ k : Fin 2048, rowShiftExp (scoresBlock x0 x1) (ix2 r k) = bExp x0 x1 r k := fun k => by
    rw [rowShiftExp_apply]
    unfold bExp bMax
    simp only [scoresBlock_apply]
  rw [pay1_eq, rowNormalize_apply]
  unfold bW bSum
  simp only [hE]

theorem pay2_eq (x0 : FVec Ideal S1x512x64 .bf16) (x1 : FVec Ideal S1x2048x64 .bf16) :
    Gen.k1_pay2 (F := Ideal) x0 x1
      = shapeCast S1x512x2048 (Gen.k1_pay1 (F := Ideal) x0 x1) shapeCasts_S512x2048_S1x512x2048 := rfl

theorem pay3_eq (x0 : FVec Ideal S1x512x64 .bf16) (x1 x2 : FVec Ideal S1x2048x64 .bf16) :
    Gen.k1_pay3 (F := Ideal) x0 x1 x2
      = shapeCast S1x512x64
          (matmul dot_S512x2048_S2048x64_S512x64_1_0_0_1_n_n none
            (truncf .bf16 (Gen.k1_pay1 (F := Ideal) x0 x1) bitsLt_bf16_f32)
            (shapeCast S2048x64 x2 shapeCasts_S1x2048x64_S2048x64) (constant S512x64 .f32 0x00000000#32))
          shapeCasts_S512x64_S1x512x64 := rfl

end AttnBlock

open AttnBlock

/-- The stored weights block at `(0, r, j)`: the softmax weight of key `j` for query row `r`. -/
theorem pay_w_apply (x0 : FVec Ideal S1x512x64 .bf16) (x1 : FVec Ideal S1x2048x64 .bf16) (r : Fin 512) (j : Fin 2048) :
    Gen.k1_pay2 (F := Ideal) x0 x1 (ValueIdx.ix3 (0 : Fin 1) r j) = bW x0 x1 r j := by
  rw [pay2_eq]
  exact (shapeCast_ab_1ab_apply _ _ (0 : Fin 1) r j).trans (pay1_apply x0 x1 r j)

/-- The stored output block at `(0, r, h)`: the weights of row `r` against column `h` of the values. -/
theorem pay_o_apply (x0 : FVec Ideal S1x512x64 .bf16) (x1 x2 : FVec Ideal S1x2048x64 .bf16) (r : Fin 512) (h : Fin 64) :
    Gen.k1_pay3 (F := Ideal) x0 x1 x2 (ValueIdx.ix3 (0 : Fin 1) r h) = bOut x0 x1 x2 r h := by
  rw [pay3_eq]
  refine (shapeCast_ab_1ab_apply _ _ (0 : Fin 1) r h).trans ?_
  refine (wv_apply _ _ r h).trans ?_
  unfold bOut
  refine Finset.sum_congr rfl fun j _ => ?_
  rw [truncf_apply, pay1_apply, shapeCast_1ab_ab_apply x2 _ j h]

end Cert.KernelIdeal.Val

end
-- ==== Proof.Val.Attn.lean ====
/-
  What the attention region leaves in its two output arrays, as whole-array functions of the queries, keys and values
  it finds — at the ideal instance and for any contents of the buffers at region entry.

  The grid is 8 × 4. Point (b, s) reads query rows 512·s … 512·s + 511 of batch b and the batch's whole keys and values,
  and writes rows 512·s … 512·s + 511 of batch b of the weights [8, 2048, 2048] and of the output [8, 2048, 64]. A row of
  softmax weights depends on its own row of scores only — through the row's maximum and the row's sum — and that row
  of scores on one query row and the batch's keys. So the weights computed on a block, at a row of the block, are the
  whole-array weights at the array row under it; the output row is that row of weights against the batch's values. The
  32 blocks tile each output array, hence the arrays end holding the weights and the attention output entry by entry.
-/
import proofs.«151917_j9363028705719_2_alg».proof.Proof.KI.Data1
import proofs.«151917_j9363028705719_2_alg».proof.Proof.Val.Spec
import Idealize.ShloMosaic.Lib.Pipeline.Value
import Idealize.ShloMosaic.Lib.ValueIdx

noncomputable section

namespace Cert.KernelIdeal.Val

open Idealize.ShloMosaic Idealize.ShloMosaic.TcCoe Idealize.SL.Sem Cert.KernelIdeal Cert.KernelIdeal.Gen
open Idealize.ShloMosaic.ValueIdx

/-! ## One row of the score array

  Everything the softmax of an entry (b, i, j) reads lies in its row (b, i, ·): the row's maximum and the row's sum are
  the same for every entry of the row. -/

theorem sqIdx_rowAt (i : S8x2048x2048.Idx) (j : Fin 2048) (h : Fin 64) : sqIdx (rowAt i j) h = sqIdx i h := by
  funext a; match a with | ⟨0, _⟩ => rfl | ⟨1, _⟩ => rfl | ⟨2, _⟩ => rfl

theorem rowAt_rowAt (i : S8x2048x2048.Idx) (j j' : Fin 2048) : rowAt (rowAt i j) j' = rowAt i j' := by
  funext a; match a with | ⟨0, _⟩ => rfl | ⟨1, _⟩ => rfl | ⟨2, _⟩ => rfl

theorem rowAt_self (i : S8x2048x2048.Idx) (j : Fin 2048) (hj : (i 2).val = j.val) : rowAt i j = i := by
  funext a; apply Fin.ext; match a with | ⟨0, _⟩ => rfl | ⟨1, _⟩ => rfl | ⟨2, _⟩ => exact hj.symm

theorem rowAt_owIdx (i : S8x2048x64.Idx) (j j' : Fin 2048) : rowAt (owIdx i j) j' = owIdx i j' := by
  funext a; match a with | ⟨0, _⟩ => rfl | ⟨1, _⟩ => rfl | ⟨2, _⟩ => rfl

theorem rowMax_rowAt (s : S8x2048x2048.Idx → EReal) (i : S8x2048x2048.Idx) (j : Fin 2048) :
    rowMax s (rowAt i j) = rowMax s i := by
  unfold rowMax
  exact congrArg (fun f : Fin 2048 → EReal => Finset.fold max negInf f Finset.univ)
    (funext fun j' => congrArg s (rowAt_rowAt i j j'))

theorem rowSum_rowAt (s : S8x2048x2048.Idx → EReal) (i : S8x2048x2048.Idx) (j : Fin 2048) :
    rowSum s (rowAt i j) = rowSum s i := by
  unfold rowSum
  refine Finset.sum_congr rfl fun j' _ => ?_
  unfold expd
  rw [rowAt_rowAt, rowMax_rowAt]

/-! ## A point's blocks against the arrays

  A block of 512 query rows x0 and a batch's keys x1 are, entry by entry, the rows of the queries and keys that the
  row of the score entry i reads; then the block-level scores, maximum, exponentials, sum and weights of that row of the
  block are the whole-array ones on the row of i. -/

section Bridge

variable (q k v : S8x2048x64.Idx → EReal) (x0 : S1x512x64.Idx → EReal) (x1 x2 : S1x2048x64.Idx → EReal)
variable (i : S8x2048x2048.Idx) (r : Fin 512)
variable (h0 : ∀ h : Fin 64, x0 (ix3 (0 : Fin 1) r h) = q (sqIdx i h))
variable (h1 : ∀ (j : Fin 2048) (h : Fin 64), x1 (ix3 (0 : Fin 1) j h) = k (skIdx (rowAt i j) h))

include h0 h1

theorem bScores_eq (j : Fin 2048) : bScores x0 x1 r j = scores q k (rowAt i j) := by
  unfold bScores scores
  refine Finset.sum_congr rfl fun h _ => ?_
  rw [h0 h, h1 j h, sqIdx_rowAt]

theorem bMax_eq : bMax x0 x1 r = rowMax (scores q k) i := by
  unfold bMax rowMax
  exact congrArg (fun f : Fin 2048 → EReal => Finset.fold max negInf f Finset.univ)
    (funext fun j => bScores_eq q k x0 x1 i r h0 h1 j)

theorem bExp_eq (j : Fin 2048) : bExp x0 x1 r j = expd (scores q k) (rowAt i j) := by
  unfold bExp expd
  rw [bScores_eq q k x0 x1 i r h0 h1 j, bMax_eq q k x0 x1 i r h0 h1, rowMax_rowAt]

theorem bSum_eq : bSum x0 x1 r = rowSum (scores q k) i := by
  unfold bSum rowSum
  exact Finset.sum_congr rfl fun j _ => bExp_eq q k x0 x1 i r h0 h1 j

theorem bW_eq (j : Fin 2048) : bW x0 x1 r j = weights q k (rowAt i j) := by
  unfold bW weights softmax
  rw [bExp_eq q k x0 x1 i r h0 h1 j, bSum_eq q k x0 x1 i r h0 h1, rowSum_rowAt]

end Bridge

/-- The output entry (b, i, h) is the weights' row (b, i, ·) against column h of the batch's values. -/
theorem bOut_eq (q k v : S8x2048x64.Idx → EReal) (x0 : S1x512x64.Idx → EReal) (x1 x2 : S1x2048x64.Idx → EReal)
    (i : S8x2048x64.Idx) (r : Fin 512) (h : Fin 64)
    (h0 : ∀ h' : Fin 64, x0 (ix3 (0 : Fin 1) r h') = q (sqIdx (owIdx i ⟨0, by decide⟩) h'))
    (h1 : ∀ (j : Fin 2048) (h' : Fin 64), x1 (ix3 (0 : Fin 1) j h') = k (skIdx (rowAt (owIdx i ⟨0, by decide⟩) j) h'))
    (h2 : ∀ j : Fin 2048, x2 (ix3 (0 : Fin 1) j h) = v (ovIdx i j)) :
    bOut x0 x1 x2 r h = attnOut q k v i := by
  unfold bOut attnOut
  refine Finset.sum_congr rfl fun j _ => ?_
  rw [bW_eq q k x0 x1 (owIdx i ⟨0, by decide⟩) r h0 h1 j, h2 j, rowAt_owIdx]

/-! ## The index maps over the grid

  Point t = (b, s) of the 8 × 4 grid: the query block, the output block and the weights block sit at block index
  (b, s, 0); the keys and the values at (b, 0, 0). -/

theorem hz3 : (![0, 0, 0] : Fin 3 → Nat) = fun _ => 0 := funext fun a => by fin_cases a <;> rfl

theorem idx_facts1 : ∀ t : Fin cfg1.N,
      win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = win1_4.index t (1 : Fin 3)
    ∧ win1_3.index t (2 : Fin 3) = 0
    ∧ win1_4.index t (2 : Fin 3) = 0 :=
  (by decide +kernel : ∀ t : Fin grid1.N, _)

/-- Every block index (b, s, 0) is some point's. -/
theorem idx_onto1 : ∀ (q0 : Fin 8) (q1 : Fin 4), ∃ t : Fin cfg1.N,
    win1_4.index t = ![q0.val, q1.val, 0] ∧ win1_3.index t = ![q0.val, q1.val, 0] :=
  (by decide +kernel : ∀ (q0 : Fin 8) (q1 : Fin 4), ∃ t : Fin grid1.N,
    win1_4.index t = ![q0.val, q1.val, 0] ∧ win1_3.index t = ![q0.val, q1.val, 0])

variable (V : (c : Dev nD) → (b : Ref sig .tc) → Buf (Elt Ideal) ((c : Thread nD τ).loc b))

/-! ## The input blocks, read in the arrays -/

/-- An entry of the query block at point t is the queries' entry at block index × block size + the entry's own
    coordinate, axis by axis. -/
theorem qblk_apply (c : Dev nD) (t : Fin cfg1.N) (y : S1x512x64.Idx) (i : S8x2048x64.Idx)
    (e0 : (i 0).val = win1_0.index t (0 : Fin 3) * 1 + 1 * (y 0).val)
    (e1 : (i 1).val = win1_0.index t (1 : Fin 3) * 512 + 1 * (y 1).val)
    (e2 : (i 2).val = win1_0.index t (2 : Fin 3) * 64 + 1 * (y 2).val) :
    (Hand.iblk1 (F := Ideal) V c 0 t : S1x512x64.Idx → EReal) y = (V c main_v3 : S8x2048x64.Idx → EReal) i := by
  unfold Hand.iblk1
  rw [View.read_apply]
  show V c main_v3 _ = V c main_v3 _
  congr 1
  funext a
  apply Fin.ext
  match a with
  | ⟨0, _⟩ => exact e0.symm
  | ⟨1, _⟩ => exact e1.symm
  | ⟨2, _⟩ => exact e2.symm

theorem kblk_apply (c : Dev nD) (t : Fin cfg1.N) (y : S1x2048x64.Idx) (i : S8x2048x64.Idx)
    (e0 : (i 0).val = win1_1.index t (0 : Fin 3) * 1 + 1 * (y 0).val)
    (e1 : (i 1).val = win1_1.index t (1 : Fin 3) * 2048 + 1 * (y 1).val)
    (e2 : (i 2).val = win1_1.index t (2 : Fin 3) * 64 + 1 * (y 2).val) :
    (Hand.iblk1 (F := Ideal) V c 1 t : S1x2048x64.Idx → EReal) y = (V c main_v4 : S8x2048x64.Idx → EReal) i := by
  unfold Hand.iblk1
  rw [View.read_apply]
  show V c main_v4 _ = V c main_v4 _
  congr 1
  funext a
  apply Fin.ext
  match a with
  | ⟨0, _⟩ => exact e0.symm
  | ⟨1, _⟩ => exact e1.symm
  | ⟨2, _⟩ => exact e2.symm

theorem vblk_apply (c : Dev nD) (t : Fin cfg1.N) (y : S1x2048x64.Idx) (i : S8x2048x64.Idx)
    (e0 : (i 0).val = win1_2.index t (0 : Fin 3) * 1 + 1 * (y 0).val)
    (e1 : (i 1).val = win1_2.index t (1 : Fin 3) * 2048 + 1 * (y 1).val)
    (e2 : (i 2).val = win1_2.index t (2 : Fin 3) * 64 + 1 * (y 2).val) :
    (Hand.iblk1 (F := Ideal) V c 2 t : S1x2048x64.Idx → EReal) y = (V c main_v5 : S8x2048x64.Idx → EReal) i := by
  unfold Hand.iblk1
  rw [View.read_apply]
  show V c main_v5 _ = V c main_v5 _
  congr 1
  funext a
  apply Fin.ext
  match a with
  | ⟨0, _⟩ => exact e0.symm
  | ⟨1, _⟩ => exact e1.symm
  | ⟨2, _⟩ => exact e2.symm

/-! ## What a point writes back -/

variable (hw : ∀ (x0 : FVec Ideal S1x512x64 .bf16) (x1 : FVec Ideal S1x2048x64 .bf16) (r : Fin 512) (j : Fin 2048),
  Gen.k1_pay2 (F := Ideal) x0 x1 (ValueIdx.ix3 (0 : Fin 1) r j) = bW x0 x1 r j)
variable (ho : ∀ (x0 : FVec Ideal S1x512x64 .bf16) (x1 x2 : FVec Ideal S1x2048x64 .bf16) (r : Fin 512) (h : Fin 64),
  Gen.k1_pay3 (F := Ideal) x0 x1 x2 (ValueIdx.ix3 (0 : Fin 1) r h) = bOut x0 x1 x2 r h)

include hw in
/-- The weights the body leaves at entry y of its block are the softmax weights at the array entry i under y. -/
theorem wpoint (c : Dev nD) (t : Fin cfg1.N) (y : S1x512x2048.Idx) (i : S8x2048x2048.Idx)
    (e0 : (i 0).val = win1_4.index t (0 : Fin 3) * 1 + 1 * (y 0).val)
    (e1 : (i 1).val = win1_4.index t (1 : Fin 3) * 512 + 1 * (y 1).val)
    (e2 : (i 2).val = win1_4.index t (2 : Fin 3) * 2048 + 1 * (y 2).val) :
    Gen.k1_pay2 (F := Ideal) (Hand.iblk1 V c 0 t) (Hand.iblk1 V c 1 t) y = weights (V c main_v3) (V c main_v4) i := by
  obtain ⟨f00, f01, f02, f10, f11, f12, f20, f21, f22, f30, f31, f32, f42⟩ := idx_facts1 t
  obtain ⟨a, r, j, rfl⟩ : ∃ (a : Fin 1) (r : Fin 512) (j : Fin 2048), y = ix3 a r j := ⟨y 0, y 1, y 2, eq_ix3 y⟩
  obtain rfl : a = 0 := Subsingleton.elim _ _
  have e0' : (i 0).val = win1_4.index t (0 : Fin 3) * 1 + 1 * 0 := e0
  have e1' : (i 1).val = win1_4.index t (1 : Fin 3) * 512 + 1 * r.val := e1
  have e2' : (i 2).val = win1_4.index t (2 : Fin 3) * 2048 + 1 * j.val := e2
  refine (hw _ _ r j).trans ?_
  have hi : rowAt i j = i := rowAt_self i j (by omega)
  refine (bW_eq (V c main_v3) (V c main_v4) _ _ i r ?_ ?_ j).trans (congrArg _ hi)
  · intro h
    refine qblk_apply V c t _ _ ?_ ?_ ?_
    · show (i 0).val = win1_0.index t (0 : Fin 3) * 1 + 1 * 0; omega
    · show (i 1).val = win1_0.index t (1 : Fin 3) * 512 + 1 * r.val; omega
    · show h.val = win1_0.index t (2 : Fin 3) * 64 + 1 * h.val; omega
  · intro j' h
    refine kblk_apply V c t _ _ ?_ ?_ ?_
    · show (i 0).val = win1_1.index t (0 : Fin 3) * 1 + 1 * 0; omega
    · show j'.val = win1_1.index t (1 : Fin 3) * 2048 + 1 * j'.val; omega
    · show h.val = win1_1.index t (2 : Fin 3) * 64 + 1 * h.val; omega

include hw in
/-- Point t writes back its block of the weights array. -/
theorem wflushed_eq (c : Dev nD) (t : Fin cfg1.N) :
    (Hand.dat1 (F := Ideal) V c).flushed 4 t
      = ((cfg1.win 4).blk t).view.read (Elt Ideal) (weights (V c main_v3) (V c main_v4)) := by
  show (cfg1.win 4).cut (grid1.coords t) ((Hand.dat1 V c).after 4 t) = _
  rw [Hand.after1_4]
  unfold Hand.out1_4
  rw [View.canon_unit_zero hz3]
  simp only [View.ld_unit_zero (S := S1x512x64) hz3, View.ld_unit_zero (S := S1x2048x64) hz3]
  funext y
  exact wpoint V hw c t y _ rfl rfl rfl

/-- An entry of the weights array is in point t's block iff each coordinate is in the block's range on its axis. -/
theorem wmem_blk (t : Fin cfg1.N) (i : S8x2048x2048.Idx) :
    i ∈ ((cfg1.win 4).blk t).view.set ↔ ∀ a : Fin 3, win1_4.index t a * S1x512x2048.size a ≤ (i a).val
      ∧ (i a).val < win1_4.index t a * S1x512x2048.size a + S1x512x2048.size a := by
  show i ∈ ((View.whole main_v6_1).slice (win1_4.rect t)).set ↔ _
  rw [View.set_slice_whole, Rect.mem_set_unit]
  exact Iff.rfl

/-- Entry (b, s, j) of the weights is in the block of the point with coordinates (b, s / 512). -/
theorem wcover (i : S8x2048x2048.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 2048 := (i 2).isLt
  obtain ⟨t, ht, -⟩ := idx_onto1 ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [wmem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 2048 ≤ (i 2).val ∧ (i 2).val < win1_4.index t (2 : Fin 3) * 2048 + 2048; omega

include hw in
/-- The weights array after the region: the softmax of the scaled scores, entry by entry. -/
theorem arr1_4 (c : Dev nD) :
    (Hand.dat1 (F := Ideal) V c).arrAt 4 cfg1.N = weights (V c main_v3) (V c main_v4) :=
  (Hand.dat1 (F := Ideal) V c).arrAt_eq_of_cover 4 (weights (V c main_v3) (V c main_v4))
    (fun t _ => wflushed_eq V hw c t) wcover

include ho in
/-- The output the body leaves at entry y of its block is the attention output at the array entry i under y. -/
theorem opoint (c : Dev nD) (t : Fin cfg1.N) (y : S1x512x64.Idx) (i : S8x2048x64.Idx)
    (e0 : (i 0).val = win1_3.index t (0 : Fin 3) * 1 + 1 * (y 0).val)
    (e1 : (i 1).val = win1_3.index t (1 : Fin 3) * 512 + 1 * (y 1).val)
    (e2 : (i 2).val = win1_3.index t (2 : Fin 3) * 64 + 1 * (y 2).val) :
    Gen.k1_pay3 (F := Ideal) (Hand.iblk1 V c 0 t) (Hand.iblk1 V c 1 t) (Hand.iblk1 V c 2 t) y
      = attnOut (V c main_v3) (V c main_v4) (V c main_v5) i := by
  obtain ⟨f00, f01, f02, f10, f11, f12, f20, f21, f22, f30, f31, f32, f42⟩ := idx_facts1 t
  obtain ⟨a, r, h, rfl⟩ : ∃ (a : Fin 1) (r : Fin 512) (h : Fin 64), y = ix3 a r h := ⟨y 0, y 1, y 2, eq_ix3 y⟩
  obtain rfl : a = 0 := Subsingleton.elim _ _
  have e0' : (i 0).val = win1_3.index t (0 : Fin 3) * 1 + 1 * 0 := e0
  have e1' : (i 1).val = win1_3.index t (1 : Fin 3) * 512 + 1 * r.val := e1
  have e2' : (i 2).val = win1_3.index t (2 : Fin 3) * 64 + 1 * h.val := e2
  refine (ho _ _ _ r h).trans ?_
  refine bOut_eq (V c main_v3) (V c main_v4) (V c main_v5) _ _ _ i r h ?_ ?_ ?_
  · intro h'
    refine qblk_apply V c t _ _ ?_ ?_ ?_
    · show (i 0).val = win1_0.index t (0 : Fin 3) * 1 + 1 * 0; omega
    · show (i 1).val = win1_0.index t (1 : Fin 3) * 512 + 1 * r.val; omega
    · show h'.val = win1_0.index t (2 : Fin 3) * 64 + 1 * h'.val; omega
  · intro j h'
    refine kblk_apply V c t _ _ ?_ ?_ ?_
    · show (i 0).val = win1_1.index t (0 : Fin 3) * 1 + 1 * 0; omega
    · show j.val = win1_1.index t (1 : Fin 3) * 2048 + 1 * j.val; omega
    · show h'.val = win1_1.index t (2 : Fin 3) * 64 + 1 * h'.val; omega
  · intro j
    refine vblk_apply V c t _ _ ?_ ?_ ?_
    · show (i 0).val = win1_2.index t (0 : Fin 3) * 1 + 1 * 0; omega
    · show j.val = win1_2.index t (1 : Fin 3) * 2048 + 1 * j.val; omega
    · show (i 2).val = win1_2.index t (2 : Fin 3) * 64 + 1 * h.val; omega

include ho in
/-- Point t writes back its block of the output array. -/
theorem oflushed_eq (c : Dev nD) (t : Fin cfg1.N) :
    (Hand.dat1 (F := Ideal) V c).flushed 3 t
      = ((cfg1.win 3).blk t).view.read (Elt Ideal) (attnOut (V c main_v3) (V c main_v4) (V c main_v5)) := by
  show (cfg1.win 3).cut (grid1.coords t) ((Hand.dat1 V c).after 3 t) = _
  rw [Hand.after1_3]
  unfold Hand.out1_3
  rw [View.canon_unit_zero hz3]
  simp only [View.ld_unit_zero (S := S1x512x64) hz3, View.ld_unit_zero (S := S1x2048x64) hz3]
  funext y
  exact opoint V ho c t y _ rfl rfl rfl

/-- An entry of the output array is in point t's block iff each coordinate is in the block's range on its axis. -/
theorem omem_blk (t : Fin cfg1.N) (i : S8x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v6_0).slice (win1_3.rect t)).set ↔ _
  rw [View.set_slice_whole, Rect.mem_set_unit]
  exact Iff.rfl

/-- Entry (b, s, h) of the output is in the block of the point with coordinates (b, s / 512). -/
theorem ocover (i : S8x2048x64.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 64 := (i 2).isLt
  obtain ⟨t, -, ht⟩ := idx_onto1 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [omem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

include ho in
/-- The output array after the region: each row of the weights against the batch's values. -/
theorem arr1_3 (c : Dev nD) :
    (Hand.dat1 (F := Ideal) V c).arrAt 3 cfg1.N = attnOut (V c main_v3) (V c main_v4) (V c main_v5) :=
  (Hand.dat1 (F := Ideal) V c).arrAt_eq_of_cover 3 (attnOut (V c main_v3) (V c main_v4) (V c main_v5))
    (fun t _ => oflushed_eq V ho c t) ocover

end Cert.KernelIdeal.Val

end
-- ==== Proof.Val.Glue.lean ====
import proofs.«151917_j9363028705719_2_alg».proof.Proof.Val.Spec
import proofs.«151917_j9363028705719_2_alg».proof.Proof.Gen.ReferenceIdeal.Read
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.SL.Sem Cert.KernelIdeal

variable [Cert.KernelIdeal.Facts]
open Cert.KernelIdeal.Facts₀

/-! ## Row-major bookkeeping

  Entry `(b, s, h)` of an `[8, 2048, 64]` array sits at row `b · 2048 + s`, column `h` of the same data laid out as
  `[16384, 64]`. -/

/-- The flat entry `(b · 2048 + s, h)` holding entry `(b, s, h)`. -/
abbrev flatIdx (i : S8x2048x64.Idx) : S16384x64.Idx := fun a => match a with
  | ⟨0, _⟩ => ⟨(i 0).val * 2048 + (i 1).val, by
      have h0 : (i 0).val < 8 := (i 0).isLt
      have h1 : (i 1).val < 2048 := (i 1).isLt
      show (i 0).val * 2048 + (i 1).val < 16384
      omega⟩
  | ⟨1, _⟩ => ⟨(i 2).val, (i 2).isLt⟩

/-- The reshaped projection at `(b, s, h)` is the flat one at `(b · 2048 + s, h)`. -/
theorem castOut_apply (y : S16384x64.Idx → EReal) (i : S8x2048x64.Idx) :
    shapeCast S8x2048x64 y shapeCasts_S16384x64_S8x2048x64 i = y (flatIdx i) :=
  shapeCast_apply y shapeCasts_S16384x64_S8x2048x64 i (flatIdx i) (by
    rw [Shape.rowMajor_val_two, Shape.rowMajor_val_three]
    rfl)

/-- The reshaped activations at `(b · 2048 + s, d)` are the activations at `(b, s, d)`. -/
theorem castX_apply (x : S8x2048x1024.Idx → EReal) (i : S8x2048x64.Idx) (d : Fin 1024) :
    shapeCast S16384x1024 x shapeCasts_S8x2048x1024_S16384x1024 (pxIdx (flatIdx i) d)
      = x (Cert.ReferenceIdeal.Read.lidx_main_v0 i d) :=
  shapeCast_apply x shapeCasts_S8x2048x1024_S16384x1024 (pxIdx (flatIdx i) d) (Cert.ReferenceIdeal.Read.lidx_main_v0 i d) (by
    rw [Shape.rowMajor_val_three, Shape.rowMajor_val_two]
    rfl)

/-- Column `h` of `[Wq | Wk | Wv]` is column `h` of `Wq`. -/
theorem catQ_apply (wq wk wv : S1024x64.Idx → EReal) (i : S8x2048x64.Idx) (d : Fin 1024) :
    concatenate S1024x192 1 [⟨S1024x64, wq⟩, ⟨S1024x64, wk⟩, ⟨S1024x64, wv⟩]
        concatenates_S1024x64_S1024x64_S1024x64_S1024x192_d1 (pwIdx 0 (by decide) (flatIdx i) d)
      = wq (Cert.ReferenceIdeal.Read.ridx_main_v0 i d) :=
  concatenate_apply_piece (t := S1024x192) 1 [⟨S1024x64, wq⟩, ⟨S1024x64, wk⟩, ⟨S1024x64, wv⟩]
    concatenates_S1024x64_S1024x64_S1024x64_S1024x192_d1 (pwIdx 0 (by decide) (flatIdx i) d)
    0 (by show 0 < 3; decide) S1024x64 wq rfl rfl 0 rfl
    (Cert.ReferenceIdeal.Read.ridx_main_v0 i d)
    (fun b => match b with
      | ⟨0, _⟩ => fun _ => rfl
      | ⟨1, _⟩ => fun hb => absurd rfl hb)
    rfl

/-- Column `64 + h` of `[Wq | Wk | Wv]` is column `h` of `Wk`. -/
theorem catK_apply (wq wk wv : S1024x64.Idx → EReal) (i : S8x2048x64.Idx) (d : Fin 1024) :
    concatenate S1024x192 1 [⟨S1024x64, wq⟩, ⟨S1024x64, wk⟩, ⟨S1024x64, wv⟩]
        concatenates_S1024x64_S1024x64_S1024x64_S1024x192_d1 (pwIdx 64 (by decide) (flatIdx i) d)
      = wk (Cert.ReferenceIdeal.Read.ridx_main_v0 i d) :=
  concatenate_apply_piece (t := S1024x192) 1 [⟨S1024x64, wq⟩, ⟨S1024x64, wk⟩, ⟨S1024x64, wv⟩]
    concatenates_S1024x64_S1024x64_S1024x64_S1024x192_d1 (pwIdx 64 (by decide) (flatIdx i) d)
    1 (by show 1 < 3; decide) S1024x64 wk rfl rfl 64 rfl
    (Cert.ReferenceIdeal.Read.ridx_main_v0 i d)
    (fun b => match b with
      | ⟨0, _⟩ => fun _ => rfl
      | ⟨1, _⟩ => fun hb => absurd rfl hb)
    rfl

/-- Column `128 + h` of `[Wq | Wk | Wv]` is column `h` of `Wv`. -/
theorem catV_apply (wq wk wv : S1024x64.Idx → EReal) (i : S8x2048x64.Idx) (d : Fin 1024) :
    concatenate S1024x192 1 [⟨S1024x64, wq⟩, ⟨S1024x64, wk⟩, ⟨S1024x64, wv⟩]
        concatenates_S1024x64_S1024x64_S1024x64_S1024x192_d1 (pwIdx 128 (by decide) (flatIdx i) d)
      = wv (Cert.ReferenceIdeal.Read.ridx_main_v0 i d) :=
  concatenate_apply_piece (t := S1024x192) 1 [⟨S1024x64, wq⟩, ⟨S1024x64, wk⟩, ⟨S1024x64, wv⟩]
    concatenates_S1024x64_S1024x64_S1024x64_S1024x192_d1 (pwIdx 128 (by decide) (flatIdx i) d)
    2 (by show 2 < 3; decide) S1024x64 wv rfl rfl 128 rfl
    (Cert.ReferenceIdeal.Read.ridx_main_v0 i d)
    (fun b => match b with
      | ⟨0, _⟩ => fun _ => rfl
      | ⟨1, _⟩ => fun hb => absurd rfl hb)
    rfl

/-! ## The three projections

  Both sides are `Σ_d x[b, s, d] · w[d, h]` with `w` the piece of the concatenated weight the columns come from; the
  queries carry the factor 1/8 on both sides. -/

/-- The reshaped scaled query projection is the reference's query projection times 1/8. -/
theorem glueQ (x : S8x2048x1024.Idx → EReal) (wq wk wv : S1024x64.Idx → EReal) :
    shapeCast S8x2048x64 (projQ (shapeCast S16384x1024 x shapeCasts_S8x2048x1024_S16384x1024)
        (concatenate S1024x192 1 [⟨S1024x64, wq⟩, ⟨S1024x64, wk⟩, ⟨S1024x64, wv⟩]
          concatenates_S1024x64_S1024x64_S1024x64_S1024x192_d1))
      shapeCasts_S16384x64_S8x2048x64
    = fun i => Cert.ReferenceIdeal.Read.val_main_v0 (F := Ideal) x wq i * eighth := by
  funext i
  rw [castOut_apply, Cert.ReferenceIdeal.Read.val_main_v0_apply]
  refine congrArg (· * eighth) (Finset.sum_congr rfl fun d _ => ?_)
  exact congrArg₂ (· * ·) (castX_apply x i d) (catQ_apply wq wk wv i d)

/-- The reshaped key projection is the reference's key projection. -/
theorem glueK (x : S8x2048x1024.Idx → EReal) (wq wk wv : S1024x64.Idx → EReal) :
    shapeCast S8x2048x64 (projK (shapeCast S16384x1024 x shapeCasts_S8x2048x1024_S16384x1024)
        (concatenate S1024x192 1 [⟨S1024x64, wq⟩, ⟨S1024x64, wk⟩, ⟨S1024x64, wv⟩]
          concatenates_S1024x64_S1024x64_S1024x64_S1024x192_d1))
      shapeCasts_S16384x64_S8x2048x64
    = Cert.ReferenceIdeal.Read.val_main_v1 (F := Ideal) x wk := by
  funext i
  rw [castOut_apply, Cert.ReferenceIdeal.Read.val_main_v1_apply]
  unfold projK projDot
  refine Finset.sum_congr rfl fun d _ => ?_
  exact congrArg₂ (· * ·) (castX_apply x i d) (catK_apply wq wk wv i d)

/-- The reshaped value projection is the reference's value projection. -/
theorem glueV (x : S8x2048x1024.Idx → EReal) (wq wk wv : S1024x64.Idx → EReal) :
    shapeCast S8x2048x64 (projV (shapeCast S16384x1024 x shapeCasts_S8x2048x1024_S16384x1024)
        (concatenate S1024x192 1 [⟨S1024x64, wq⟩, ⟨S1024x64, wk⟩, ⟨S1024x64, wv⟩]
          concatenates_S1024x64_S1024x64_S1024x64_S1024x192_d1))
      shapeCasts_S16384x64_S8x2048x64
    = Cert.ReferenceIdeal.Read.val_main_v2 (F := Ideal) x wv := by
  funext i
  rw [castOut_apply, Cert.ReferenceIdeal.Read.val_main_v2_apply]
  unfold projV projDot
  refine Finset.sum_congr rfl fun d _ => ?_
  exact congrArg₂ (· * ·) (castX_apply x i d) (catV_apply wq wk wv i d)

end Cert.KernelIdeal.Val

end
-- ==== Proof.Val.ScoresRef.lean ====
/-
  The one algebraic law that joins the two programs' scores.

  One program multiplies every query entry by 1/8 and then contracts with the keys:
      Σ_h (Q[b, i, h] · (1/8)) · K[b, j, h].
  The other contracts first and divides the result by √64:
      (Σ_h Q[b, i, h] · K[b, j, h]) / √64.
  The projected queries and keys are finite sums of products of finite inputs, hence real; √64 = 8; division of an
  extended real by the nonzero real 8 is multiplication by 1/8; and over the reals the scale factors out of the sum.
-/
import proofs.«151917_j9363028705719_2_alg».proof.Proof.Val.Spec
import proofs.«151917_j9363028705719_2_alg».proof.Proof.Gen.ReferenceIdeal.Read
import Idealize.ShloMosaic.PureOps.Ideal.Laws

noncomputable section

namespace Cert.KernelIdeal.Val

open Idealize.ShloMosaic Cert.ReferenceIdeal.Read

/-! ## The two constants -/

/-- The scale word: sign 0, exponent 124, fraction 0, so 2^(124 − 127) = 1/8. -/
theorem eighth_eq : eighth = (((1 : ℝ) / 8 : ℝ) : EReal) := by
  show Ideal.ofBits .f32 0x3E000000#32 = _
  simp [Ideal.ofBits, Ideal.ieee, -EReal.coe_mul]; norm_num

/-- The divisor's radicand: sign 0, exponent 133, fraction 0, so 2^(133 − 127) = 64. -/
theorem ofBits_sixtyfour : Ideal.ofBits .f32 0x42800000#32 = ((64 : ℝ) : EReal) := by
  simp [Ideal.ofBits, Ideal.ieee, -EReal.coe_mul]; norm_num

/-- √64 = 8, from 64 = 8². -/
theorem sqrt_sixtyfour : Ideal.sqrt ((64 : ℝ) : EReal) = ((8 : ℝ) : EReal) := by
  have h : Real.sqrt 64 = 8 := by
    rw [show (64 : ℝ) = 8 ^ 2 by norm_num, Real.sqrt_sq (by norm_num)]
  rw [Ideal.sqrt_coe, if_neg (by norm_num), h]

/-! ## Finite sums of reals inside the extended reals -/

/-- The coercion ℝ → EReal commutes with finite sums. -/
theorem coe_finset_sum {ι : Type*} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A dot product of real vectors is real. -/
theorem dot_real {ι : Type*} [Fintype ι] (f g : ι → EReal)
    (hf : ∀ a, ∃ r : ℝ, f a = (r : EReal)) (hg : ∀ a, ∃ r : ℝ, g a = (r : EReal)) :
    ∃ r : ℝ, ∑ a, f a * g a = (r : EReal) := by
  choose fr hfr using hf
  choose gr hgr using hg
  refine ⟨∑ a, fr a * gr a, ?_⟩
  rw [coe_finset_sum]
  exact Finset.sum_congr rfl fun a _ => by rw [hfr, hgr, EReal.coe_mul]

/-- Over the reals a scale applied to each left factor comes out of the dot product. -/
theorem scale_out {ι : Type*} [Fintype ι] (q k : ι → ℝ) (c : ℝ) :
    ∑ h, ((q h : EReal) * (c : EReal)) * (k h : EReal) = (∑ h, (q h : EReal) * (k h : EReal)) * (c : EReal) := by
  have e : ∑ h, (q h * c) * k h = (∑ h, q h * k h) * c := by
    rw [Finset.sum_mul]
    exact Finset.sum_congr rfl fun h _ => by ring
  calc ∑ h, ((q h : EReal) * (c : EReal)) * (k h : EReal)
      = ((∑ h, (q h * c) * k h : ℝ) : EReal) := by
        rw [coe_finset_sum]
        exact Finset.sum_congr rfl fun h _ => by rw [EReal.coe_mul, EReal.coe_mul]
    _ = (((∑ h, q h * k h) * c : ℝ) : EReal) := by rw [e]
    _ = (∑ h, (q h : EReal) * (k h : EReal)) * (c : EReal) := by
        rw [EReal.coe_mul, coe_finset_sum]
        exact congrArg (· * (c : EReal)) (Finset.sum_congr rfl fun h _ => by rw [EReal.coe_mul])

/-! ## The law -/

/-- Scaling the queries by 1/8 before the contraction equals dividing the contraction by √64, on finite inputs. -/
theorem scores_ref (x : (⟨Cert.ReferenceIdeal.S8x2048x1024, .f32⟩ : BufTy).Contents (Elt Ideal))
    (wq wk : (⟨Cert.ReferenceIdeal.S1024x64, .f32⟩ : BufTy).Contents (Elt Ideal))
    (hx : ∀ i, ∃ r : ℝ, x i = (r : EReal)) (hq : ∀ i, ∃ r : ℝ, wq i = (r : EReal))
    (hk : ∀ i, ∃ r : ℝ, wk i = (r : EReal)) :
    scores (fun i => val_main_v0 (F := Ideal) x wq i * eighth) (val_main_v1 (F := Ideal) x wk)
      = val_main_v6 (F := Ideal) x wq wk := by
  -- the projected queries and keys are real
  have hQ : ∀ i, ∃ r : ℝ, val_main_v0 (F := Ideal) x wq i = (r : EReal) := fun i => by
    rw [val_main_v0_apply]
    exact dot_real _ _ (fun a => hx _) (fun a => hq _)
  have hK : ∀ i, ∃ r : ℝ, val_main_v1 (F := Ideal) x wk i = (r : EReal) := fun i => by
    rw [val_main_v1_apply]
    exact dot_real _ _ (fun a => hx _) (fun a => hk _)
  choose Q hQ using hQ
  choose K hK using hK
  funext i
  rw [val_main_v6_apply, val_main_v3_apply, val_main_v5_apply, val_main_v4_apply, val_main_cst_apply]
  show ∑ h : Fin 64, (val_main_v0 (F := Ideal) x wq (lidx_main_v3 i h) * eighth)
        * val_main_v1 (F := Ideal) x wk (ridx_main_v3 i h)
      = Ideal.div (∑ h : Fin 64, val_main_v0 (F := Ideal) x wq (lidx_main_v3 i h)
          * val_main_v1 (F := Ideal) x wk (ridx_main_v3 i h))
        (Ideal.sqrt (Ideal.ofBits .f32 0x42800000#32))
  rw [ofBits_sixtyfour, sqrt_sixtyfour, Ideal.div_coe (by norm_num), eighth_eq]
  simp only [hQ, hK]
  exact scale_out _ _ _

end Cert.KernelIdeal.Val

end
-- ==== Proof.Val.SoftmaxRef.lean ====
/-
  The reference's softmax and its final product, as the specification's functions of the reference's scaled scores.

  With `s` the scaled scores `[8, 2048, 2048]`, the reference computes, one operation at a time,
      m[b, r]      = fold of max from −∞ over j of s[b, r, j]           (a reduce over axis 2),
      m'[b, r]     = max (−∞) m[b, r] = m[b, r],
      e[b, r, j]   = exp (s[b, r, j] − m'[b, r])                        (m' broadcast back along the row),
      z[b, r]      = 0 + Σ_j e[b, r, j],
      w[b, r, j]   = e[b, r, j] / z[b, r]                               (z broadcast back along the row),
      out[b, r, h] = Σ_j w[b, r, j] · v[b, j, h].
  Each line is the same operation on the same extended reals as `rowMax`, `expd`, `rowSum`, `softmax` and the sum
  of `attnOut`; nothing about finiteness is used.
-/
import proofs.«151917_j9363028705719_2_alg».proof.Proof.Val.Spec
import proofs.«151917_j9363028705719_2_alg».proof.Proof.Gen.ReferenceIdeal.Read
import Idealize.ShloMosaic.PureOps.Ideal.Laws
import Idealize.ShloMosaic.Lib.Pipeline.Value
import Idealize.ShloMosaic.Lib.ValueIdx

noncomputable section

namespace Cert.KernelIdeal.Val

open Idealize.ShloMosaic Cert.ReferenceIdeal.Read

/-- The f32 word of −∞ is the bottom of the extended reals, so a maximum against it is the other operand. -/
theorem max_negInf (y : EReal) : max negInf y = y := by
  show max (Ideal.ofBits .f32 0xFF800000#32) y = y
  simp [Ideal.ofBits, Ideal.ieee]

/-- Entry `k` of the row `(b, r)` read off `i = (b, r, _)` through the two broadcasts is `rowAt i k`
    (the broadcasts of the row maximum). -/
theorem rowAt_max (i : Cert.ReferenceIdeal.S8x2048x2048.Idx) (k : Fin 2048) :
    idx_main_v14 (idx_main_v10 (idx_main_v11 i)) k = rowAt i k :=
  funext fun a => Fin.ext (by match a with | ⟨0, _⟩ => rfl | ⟨1, _⟩ => rfl | ⟨2, _⟩ => rfl)

/-- The same for the broadcasts of the row sum. -/
theorem rowAt_sum (i : Cert.ReferenceIdeal.S8x2048x2048.Idx) (k : Fin 2048) :
    idx_main_v14 (idx_main_v15 (idx_main_v16 i)) k = rowAt i k :=
  funext fun a => Fin.ext (by match a with | ⟨0, _⟩ => rfl | ⟨1, _⟩ => rfl | ⟨2, _⟩ => rfl)

/-- The reduce over axis 2 with a maximum body, at `(b, r)`: the fold of `max` from −∞ over the row's entries. -/
theorem v7_apply (x : (⟨Cert.ReferenceIdeal.S8x2048x1024, .f32⟩ : BufTy).Contents (Elt Ideal))
    (wq wk : (⟨Cert.ReferenceIdeal.S1024x64, .f32⟩ : BufTy).Contents (Elt Ideal)) (j : Cert.ReferenceIdeal.S8x2048.Idx) :
    val_main_v7 (F := Ideal) x wq wk j
      = (Finset.univ : Finset (Fin 2048)).fold max negInf (fun k => val_main_v6 (F := Ideal) x wq wk (idx_main_v14 j k)) := by
  unfold val_main_v7
  generalize val_main_v6 (F := Ideal) x wq wk = s
  have h : Cert.ReferenceIdeal.S8x2048x2048.Reduces [2] Cert.ReferenceIdeal.S8x2048 := by decide
  refine (Host.reduce_eq_fold_single (FloatOps.maximumf (F := Ideal) (φ := .f32)) s _ _ h _ j).trans ?_
  have hf : (s ∘ h.lift j) = fun k : Fin 2048 => s (idx_main_v14 j k) :=
    funext fun k => congrArg s (funext fun a => Fin.ext (by match a with | ⟨0, _⟩ => rfl | ⟨1, _⟩ => rfl | ⟨2, _⟩ => rfl))
  exact congrArg (fun f => Finset.fold max negInf f (Finset.univ : Finset (Fin 2048))) hf

/-- The row maximum, broadcast back along the row, is `rowMax` of the scaled scores. -/
theorem v11_eq (x : (⟨Cert.ReferenceIdeal.S8x2048x1024, .f32⟩ : BufTy).Contents (Elt Ideal))
    (wq wk : (⟨Cert.ReferenceIdeal.S1024x64, .f32⟩ : BufTy).Contents (Elt Ideal)) (i : Cert.ReferenceIdeal.S8x2048x2048.Idx) :
    val_main_v11 (F := Ideal) x wq wk i = rowMax (val_main_v6 (F := Ideal) x wq wk) i := by
  rw [val_main_v11_apply, val_main_v10_apply, val_main_v9_apply, val_main_v8_apply, val_main_cst_1_apply, v7_apply]
  unfold rowMax
  simp only [rowAt_max]
  exact max_negInf _

/-- The exponentials are `expd` of the scaled scores. -/
theorem v13_eq (x : (⟨Cert.ReferenceIdeal.S8x2048x1024, .f32⟩ : BufTy).Contents (Elt Ideal))
    (wq wk : (⟨Cert.ReferenceIdeal.S1024x64, .f32⟩ : BufTy).Contents (Elt Ideal)) (i : Cert.ReferenceIdeal.S8x2048x2048.Idx) :
    val_main_v13 (F := Ideal) x wq wk i = expd (val_main_v6 (F := Ideal) x wq wk) i := by
  rw [val_main_v13_apply, val_main_v12_apply, v11_eq]
  rfl

/-- The row sum, broadcast back along the row, is `rowSum` of the scaled scores: the sum starts from the word of zero. -/
theorem v16_eq (x : (⟨Cert.ReferenceIdeal.S8x2048x1024, .f32⟩ : BufTy).Contents (Elt Ideal))
    (wq wk : (⟨Cert.ReferenceIdeal.S1024x64, .f32⟩ : BufTy).Contents (Elt Ideal)) (i : Cert.ReferenceIdeal.S8x2048x2048.Idx) :
    val_main_v16 (F := Ideal) x wq wk i = rowSum (val_main_v6 (F := Ideal) x wq wk) i := by
  rw [val_main_v16_apply, val_main_v15_apply, val_main_v14_apply, val_main_cst_2_apply]
  unfold rowSum
  simp only [v13_eq, rowAt_sum, Ideal.ofBits_def, Ideal.ofBits_zero_f32, zero_add]

/-- The reference's weights are `softmax` of its scaled scores. -/
theorem softmax_ref (x : (⟨Cert.ReferenceIdeal.S8x2048x1024, .f32⟩ : BufTy).Contents (Elt Ideal))
    (wq wk : (⟨Cert.ReferenceIdeal.S1024x64, .f32⟩ : BufTy).Contents (Elt Ideal)) :
    softmax (val_main_v6 (F := Ideal) x wq wk) = val_main_v17 (F := Ideal) x wq wk := by
  funext i
  rw [val_main_v17_apply, v13_eq, v16_eq]
  rfl

/-- The reference's output is the weights times the values, summed over the key position. -/
theorem out_ref (x : (⟨Cert.ReferenceIdeal.S8x2048x1024, .f32⟩ : BufTy).Contents (Elt Ideal))
    (wq wk wv : (⟨Cert.ReferenceIdeal.S1024x64, .f32⟩ : BufTy).Contents (Elt Ideal)) :
    (fun i => ∑ j : Fin 2048, val_main_v17 (F := Ideal) x wq wk (owIdx i j) * val_main_v2 (F := Ideal) x wv (ovIdx i j))
      = val_main_v18 (F := Ideal) x wq wk wv := by
  funext i
  rw [val_main_v18_apply]
  have el : ∀ k : Fin 2048, lidx_main_v18 i k = owIdx i k := fun k =>
    funext fun a => Fin.ext (by match a with | ⟨0, _⟩ => rfl | ⟨1, _⟩ => rfl | ⟨2, _⟩ => rfl)
  have er : ∀ k : Fin 2048, ridx_main_v18 i k = ovIdx i k := fun k =>
    funext fun a => Fin.ext (by match a with | ⟨0, _⟩ => rfl | ⟨1, _⟩ => rfl | ⟨2, _⟩ => rfl)
  simp only [el, er]

end Cert.KernelIdeal.Val

end
-- ==== Proof.Val.Finite.lean ====
import proofs.«151917_j9363028705719_2_alg».proof.Defs
import Idealize.ShloMosaic.Lib.ReduceAll
import Idealize.ShloMosaic.Lib.ValueIdx
import Idealize.ShloMosaic.PureOps.Ideal

/-!
# Finite inputs: every entry of every argument array is a real number

The precondition says, for each of the four argument arrays `a`, that `|a i| < +∞` at every index `i`.
At the ideal instance a float is an extended real, `|x| = max x (−x)`, and the word `0x7F800000` denotes `⊤`;
`max x (−x) < ⊤` excludes both `x = ⊤` and `x = ⊥`, so `x` is (the coercion of) a real number.
-/

noncomputable section

namespace Cert.KernelIdeal.Val

open Idealize.ShloMosaic Idealize.ShloMosaic.TcCoe Idealize.SL.Sem

/-- The f32 word with all exponent bits set and zero mantissa denotes `+∞`. -/
theorem ofBits_f32_pos_inf : Ideal.ofBits .f32 0x7F800000#32 = ⊤ := by simp [Ideal.ofBits, Ideal.ieee]

/-- An extended real whose absolute value `max x (−x)` lies strictly below `⊤` is a real number:
    `x = ⊤` gives `max = ⊤`, and `x = ⊥` gives `−x = ⊤`, so again `max = ⊤`. -/
theorem finite_of_abs_lt_top (x : EReal) (h : max x (-x) < ⊤) : ∃ r : ℝ, x = (r : EReal) := by
  induction x using EReal.rec with
  | bot => simp at h
  | coe r => exact ⟨r, rfl⟩
  | top => simp at h

/-- The one-bit comparison `|x| < +∞` being true says `x` is a real number. -/
theorem finite_of_cmp_one (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_f32_pos_inf] at h'
  unfold Ideal.cmp at h'
  by_cases hlt : max (x : EReal) (-(x : EReal)) < ⊤
  · exact finite_of_abs_lt_top x hlt
  · simp [hlt] at h'

/-- Under the precondition every entry of each of the four argument arrays is a real number: the precondition is
    the conjunction of four statements "for all indices `i`, `|a i| < +∞`", one per array. -/
theorem finite_of_pre [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  -- a rank-0 array has exactly one index
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1] at h
  -- the conjunction of the four `all`s, split from the outside in
  obtain ⟨h012, h3⟩ := IntOp.andi_eq_one.1 h
  obtain ⟨h01, h2⟩ := IntOp.andi_eq_one.1 h012
  obtain ⟨h0, h1⟩ := IntOp.andi_eq_one.1 h01
  -- each `all` gives the comparison bit at every index, and the bit gives a real witness
  exact ⟨fun i => finite_of_cmp_one _ (Host.reduce_andi_all _ _ _ _ _ h0 i),
    fun i => finite_of_cmp_one _ (Host.reduce_andi_all _ _ _ _ _ h1 i),
    fun i => finite_of_cmp_one _ (Host.reduce_andi_all _ _ _ _ _ h2 i),
    fun i => finite_of_cmp_one _ (Host.reduce_andi_all _ _ _ _ _ h3 i)⟩

end Cert.KernelIdeal.Val

end
-- ==== Proof.lean ====
/-
  Single-head attention in two kernel launches against its jnp reference: the certificate's five claims.

  The kernel first projects the flattened activations by the three weights side by side, keeping the keys and values
  as they come and the queries times 1/8; then, per batch and per block of 512 query rows, forms the scores q·kᵀ,
  subtracts each row's maximum, exponentiates, divides by the row's sum, and multiplies the weights by the values.
  The reference projects with three separate products, divides the scores by √64, and applies the same softmax and
  product. On the extended reals the two agree once the inputs are finite: the projected queries and keys are then real,
  √64 = 8, dividing by 8 is multiplying by 1/8, and over the reals the factor comes out of the 64-term sum. Everything
  after the scores is the same chain of operations on equal arguments.

  The frames: each program runs to the end without a fault and leaves its four argument arrays as it found them — for the
  kernel (at the word level and on the extended reals alike) through the run of its four segments (host operations, the
  projection launch, host operations, the attention launch), each launch by its body's triple at a generic grid point;
  for the reference through its straight-line run. The idealization changed no operation, so nothing is owed for it.
-/
import proofs.«151917_j9363028705719_2_alg».proof.Defs
import proofs.«151917_j9363028705719_2_alg».proof.Proof.Gen.Kernel
import proofs.«151917_j9363028705719_2_alg».proof.Proof.Gen.KernelIdeal
import proofs.«151917_j9363028705719_2_alg».proof.Proof.Gen.ReferenceIdeal
import proofs.«151917_j9363028705719_2_alg».proof.Proof.Gen.Pre_finite_inputs
import proofs.«151917_j9363028705719_2_alg».proof.Proof.Gen.ReferenceIdeal.Run
import proofs.«151917_j9363028705719_2_alg».proof.Proof.Gen.ReferenceIdeal.Read
import proofs.«151917_j9363028705719_2_alg».proof.Proof.K.Body0
import proofs.«151917_j9363028705719_2_alg».proof.Proof.K.Body1
import proofs.«151917_j9363028705719_2_alg».proof.Proof.K.Run
import proofs.«151917_j9363028705719_2_alg».proof.Proof.KI.Body0
import proofs.«151917_j9363028705719_2_alg».proof.Proof.KI.Body1
import proofs.«151917_j9363028705719_2_alg».proof.Proof.KI.Run
import proofs.«151917_j9363028705719_2_alg».proof.Proof.Val.Host
import proofs.«151917_j9363028705719_2_alg».proof.Proof.Val.Proj
import proofs.«151917_j9363028705719_2_alg».proof.Proof.Val.AttnPayload
import proofs.«151917_j9363028705719_2_alg».proof.Proof.Val.Attn
import proofs.«151917_j9363028705719_2_alg».proof.Proof.Val.Glue
import proofs.«151917_j9363028705719_2_alg».proof.Proof.Val.ScoresRef
import proofs.«151917_j9363028705719_2_alg».proof.Proof.Val.SoftmaxRef
import proofs.«151917_j9363028705719_2_alg».proof.Proof.Val.Finite

noncomputable section

namespace Cert.Proof

open Idealize.ShloMosaic Idealize.ShloMosaic.TcCoe Idealize.SL.Sem

/-! ## What the kernel's two result arrays hold, on the extended reals -/

namespace Values

open Cert.KernelIdeal Cert.KernelIdeal.Gen Cert.KernelIdeal.Hand Cert.KernelIdeal.Val
open Cert.ReferenceIdeal.Read (val_main_v0 val_main_v1 val_main_v2 val_main_v6 val_main_v17 val_main_v18)

variable (m : (ℓ : Loc nD τ sig) → Buf (Elt Ideal) ℓ) (ρ : Dev nD → PrngReg)

/-- The queries the attention launch finds: the reference's query projection times 1/8. -/
theorem entry_q (c : Dev nD) : (V3 (F := Ideal) m ρ c main_v3 : S8x2048x64.Idx → EReal)
    = fun i => val_main_v0 (F := Ideal) (m ((c : Thread nD τ).loc main_arg0)) (m ((c : Thread nD τ).loc main_arg1)) i * eighth := by
  show StableHlo.after (hostOps1 (F := Ideal)) (W2 m ρ c) (Proc.devRef .tc main_v3) = _
  rw [host1_q, W2_q, arr0_2]
  show shapeCast S8x2048x64 (projQ (StableHlo.after (hostOps0 (F := Ideal)) (W0 m ρ c) (Proc.devRef .tc main_v1))
      (StableHlo.after (hostOps0 (F := Ideal)) (W0 m ρ c) (Proc.devRef .tc main_v0))) _ = _
  rw [host0_x, host0_w]
  exact glueQ _ _ _ _

/-- The keys it finds: the reference's key projection. -/
theorem entry_k (c : Dev nD) : (V3 (F := Ideal) m ρ c main_v4 : S8x2048x64.Idx → EReal)
    = val_main_v1 (F := Ideal) (m ((c : Thread nD τ).loc main_arg0)) (m ((c : Thread nD τ).loc main_arg2)) := by
  show StableHlo.after (hostOps1 (F := Ideal)) (W2 m ρ c) (Proc.devRef .tc main_v4) = _
  rw [host1_k, W2_k, arr0_3]
  show shapeCast S8x2048x64 (projK (StableHlo.after (hostOps0 (F := Ideal)) (W0 m ρ c) (Proc.devRef .tc main_v1))
      (StableHlo.after (hostOps0 (F := Ideal)) (W0 m ρ c) (Proc.devRef .tc main_v0))) _ = _
  rw [host0_x, host0_w]
  exact glueK _ _ _ _

/-- The values it finds: the reference's value projection. -/
theorem entry_v (c : Dev nD) : (V3 (F := Ideal) m ρ c main_v5 : S8x2048x64.Idx → EReal)
    = val_main_v2 (F := Ideal) (m ((c : Thread nD τ).loc main_arg0)) (m ((c : Thread nD τ).loc main_arg3)) := by
  show StableHlo.after (hostOps1 (F := Ideal)) (W2 m ρ c) (Proc.devRef .tc main_v5) = _
  rw [host1_v, W2_v, arr0_4]
  show shapeCast S8x2048x64 (projV (StableHlo.after (hostOps0 (F := Ideal)) (W0 m ρ c) (Proc.devRef .tc main_v1))
      (StableHlo.after (hostOps0 (F := Ideal)) (W0 m ρ c) (Proc.devRef .tc main_v0))) _ = _
  rw [host0_x, host0_w]
  exact glueV _ _ _ _

/-- The weights array after the run is the reference's softmax, when the activations and the query and key weights
    are finite. -/
theorem final_wts (c : Dev nD)
    (hx : ∀ i, ∃ r : ℝ, m ((c : Thread nD τ).loc main_arg0) i = (r : EReal))
    (hq : ∀ i, ∃ r : ℝ, m ((c : Thread nD τ).loc main_arg1) i = (r : EReal))
    (hk : ∀ i, ∃ r : ℝ, m ((c : Thread nD τ).loc main_arg2) i = (r : EReal)) :
    (W4 (F := Ideal) m ρ c (Proc.devRef .tc main_v6_1) : S8x2048x2048.Idx → EReal)
      = val_main_v17 (F := Ideal) (m ((c : Thread nD τ).loc main_arg0)) (m ((c : Thread nD τ).loc main_arg1)) (m ((c : Thread nD τ).loc main_arg2)) := by
  rw [W4_wts, arr1_4 (V3 m ρ) pay_w_apply c, entry_q, entry_k]
  unfold weights
  rw [scores_ref _ _ _ hx hq hk, softmax_ref]

/-- The output array after the run is the reference's, under the same finiteness. -/
theorem final_out (c : Dev nD)
    (hx : ∀ i, ∃ r : ℝ, m ((c : Thread nD τ).loc main_arg0) i = (r : EReal))
    (hq : ∀ i, ∃ r : ℝ, m ((c : Thread nD τ).loc main_arg1) i = (r : EReal))
    (hk : ∀ i, ∃ r : ℝ, m ((c : Thread nD τ).loc main_arg2) i = (r : EReal)) :
    (W4 (F := Ideal) m ρ c (Proc.devRef .tc main_v6_0) : S8x2048x64.Idx → EReal)
      = val_main_v18 (F := Ideal) (m ((c : Thread nD τ).loc main_arg0)) (m ((c : Thread nD τ).loc main_arg1)) (m ((c : Thread nD τ).loc main_arg2)) (m ((c : Thread nD τ).loc main_arg3)) := by
  rw [W4_out, arr1_3 (V3 m ρ) pay_o_apply c, entry_q, entry_k, entry_v]
  unfold attnOut weights
  rw [scores_ref _ _ _ hx hq hk, softmax_ref]
  exact out_ref _ _ _ _

end Values

/-! ## The claims -/

theorem frame_k : Cert.frame_Kernel := fun m ρ _ =>
  Cert.Kernel.Hand.frame m ρ (fun c => Cert.Kernel.Hand.body_obligation0 _ c) (fun c => Cert.Kernel.Hand.body_obligation1 _ c)

theorem frame_ki : Cert.frame_KernelIdeal := fun m ρ _ =>
  Cert.KernelIdeal.Hand.frame m ρ (fun c => Cert.KernelIdeal.Hand.body_obligation0 _ c) (fun c => Cert.KernelIdeal.Hand.body_obligation1 _ c)

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal.Hand Cert.KernelIdeal.Val in
/-- Both programs run; the kernel's two result arrays are the reference's stages for the output and the softmax
    weights, of arguments that agree. -/
theorem algebraic : Cert.algebraic_KernelIdeal_ReferenceIdeal := by
  intro m ρ m' ρ' hpre hagree
  refine ⟨fun c => Cert.ReferenceIdeal.Read.val_main_v18 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v17 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_)
      (run_all (F := Ideal) m ρ (fun c => body_obligation0 _ c) (fun c => body_obligation1 _ c))
    obtain ⟨hx, hq, hk, _⟩ := finite_of_pre m hpre c
    exact ⟨(h c _ (mem_uc Cert.KernelIdeal.main_v6_0 (by decide))).trans (Values.final_out m ρ c hx hq hk),
      (h c _ (mem_uc Cert.KernelIdeal.main_v6_1 (by decide))).trans (Values.final_wts m ρ c hx hq hk),
      (h c _ (mem_uc Cert.KernelIdeal.main_arg0 (by decide))).trans (W4_main_arg0 m ρ c),
      (h c _ (mem_uc Cert.KernelIdeal.main_arg1 (by decide))).trans (W4_main_arg1 m ρ c),
      (h c _ (mem_uc Cert.KernelIdeal.main_arg2 (by decide))).trans (W4_main_arg2 m ρ c),
      (h c _ (mem_uc Cert.KernelIdeal.main_arg3 (by decide))).trans (W4_main_arg3 m ρ c)⟩
  · refine (θ_run Cert.ReferenceIdeal.defs _ _).mono (fun r h c => ?_) (Cert.ReferenceIdeal.Value.run (F := Ideal) m' ρ')
    obtain ⟨h18, h17, ha⟩ := h c
    refine ⟨h18.trans ?_, h17.trans ?_, ha⟩
    · rw [(hagree c).1, (hagree c).2.1, (hagree c).2.2.1, (hagree c).2.2.2]
      exact Cert.ReferenceIdeal.Read.val_main_v18_eq _ _ _ _
    · rw [(hagree c).1, (hagree c).2.1, (hagree c).2.2.1]
      exact Cert.ReferenceIdeal.Read.val_main_v17_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
